-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x64x64x256 : Shape := ⟨4, ![16, 64, 64, 256]⟩
abbrev S16x128x128x256 : Shape := ⟨4, ![16, 128, 128, 256]⟩
abbrev S_ : Shape := ⟨0, ![]⟩

class Facts : Prop where
  bcast_S_S16x64x64x256 : S_.BroadcastsInDim S16x64x64x256 (![] : Fin 0 → Fin S16x64x64x256.rank)
  reducesTo_S16x64x64x256_S_d0_1_2_3 : S16x64x64x256.ReducesTo [0, 1, 2, 3] S_
  h_S_ : 0 < S_.numel
  bcast_S_S16x128x128x256 : S_.BroadcastsInDim S16x128x128x256 (![] : Fin 0 → Fin S16x128x128x256.rank)
  reducesTo_S16x128x128x256_S_d0_1_2_3 : S16x128x128x256.ReducesTo [0, 1, 2, 3] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S16x64x64x256 .f32) (main_arg1 : IVec S16x64x64x256 32) (main_arg2 : FVec F S16x128x128x256 .f32) : IVec S_ 1 :=
  let main_v0 : FVec F S16x64x64x256 .f32 := Host.absf main_arg0
  let main_cst : FVec F S_ .f32 := constant S_ .f32 0x7F800000#32
  let main_v1 : FVec F S16x64x64x256 .f32 := broadcastInDim S16x64x64x256 ![] bcast_S_S16x64x64x256 main_cst
  let main_v2 : IVec S16x64x64x256 1 := cmpf .olt main_v0 main_v1
  let main_c : IVec S_ 1 := constantI S_ 1 1#1
  let main_v3 : IVec S_ 1 := (fun x v => Host.reduce IntOp.andi x v reducesTo_S16x64x64x256_S_d0_1_2_3 h_S_) main_v2 main_c
  let main_v4 : FVec F S16x128x128x256 .f32 := Host.absf main_arg2
  let main_cst_0 : FVec F S_ .f32 := constant S_ .f32 0x7F800000#32
  let main_v5 : FVec F S16x128x128x256 .f32 := broadcastInDim S16x128x128x256 ![] bcast_S_S16x128x128x256 main_cst_0
  let main_v6 : IVec S16x128x128x256 1 := cmpf .olt main_v4 main_v5
  let main_c_1 : IVec S_ 1 := constantI S_ 1 1#1
  let main_v7 : IVec S_ 1 := (fun x v => Host.reduce IntOp.andi x v reducesTo_S16x128x128x256_S_d0_1_2_3 h_S_) main_v6 main_c_1
  let main_v8 : IVec S_ 1 := andi main_v3 main_v7
  let main_c_2 : IVec S_ 32 := constantI S_ 32 0#32
  let main_v9 : IVec S16x64x64x256 32 := broadcastInDim S16x64x64x256 ![] bcast_S_S16x64x64x256 main_c_2
  let main_v10 : IVec S16x64x64x256 1 := cmpi .sge main_arg1 main_v9
  let main_c_3 : IVec S_ 1 := constantI S_ 1 1#1
  let main_v11 : IVec S_ 1 := (fun x v => Host.reduce IntOp.andi x v reducesTo_S16x64x64x256_S_d0_1_2_3 h_S_) main_v10 main_c_3
  let main_v12 : IVec S_ 1 := andi main_v8 main_v11
  let main_c_4 : IVec S_ 32 := constantI S_ 32 4194304#32
  let main_v13 : IVec S16x64x64x256 32 := broadcastInDim S16x64x64x256 ![] bcast_S_S16x64x64x256 main_c_4
  let main_v14 : IVec S16x64x64x256 1 := cmpi .slt main_arg1 main_v13
  let main_c_5 : IVec S_ 1 := constantI S_ 1 1#1
  let main_v15 : IVec S_ 1 := (fun x v => Host.reduce IntOp.andi x v reducesTo_S16x64x64x256_S_d0_1_2_3 h_S_) main_v14 main_c_5
  fn_part1 (F := F) main_v12 main_v15
-- ==== Kernel.lean ====
abbrev S16x64x64x256 : Shape := ⟨4, ![16, 64, 64, 256]⟩
abbrev S16x128x128x256 : Shape := ⟨4, ![16, 128, 128, 256]⟩
abbrev S2x64x64x256 : Shape := ⟨4, ![2, 64, 64, 256]⟩
abbrev S16777216 : Shape := ⟨1, ![16777216]⟩
abbrev S_ : Shape := ⟨0, ![]⟩
abbrev S67108864 : Shape := ⟨1, ![67108864]⟩
abbrev S16777216x1 : Shape := ⟨2, ![16777216, 1]⟩

abbrev nBuf : Space → Nat
  | .hbm => 18
  | .vmem => 4
  | .smem => 0
  | _ => 0

abbrev bufTy : (tb : Table) → Fin (tcTables nBuf tb) → BufTy
  | .hbm, ⟨0, _⟩ => ⟨S16x64x64x256, .f32⟩
  | .hbm, ⟨1, _⟩ => ⟨S16x64x64x256, .i32⟩
  | .hbm, ⟨2, _⟩ => ⟨S16x128x128x256, .f32⟩
  | .hbm, ⟨3, _⟩ => ⟨S16x64x64x256, .i32⟩
  | .hbm, ⟨4, _⟩ => ⟨S16777216, .i32⟩
  | .hbm, ⟨5, _⟩ => ⟨S16777216, .f32⟩
  | .hbm, ⟨6, _⟩ => ⟨S_, .f32⟩
  | .hbm, ⟨7, _⟩ => ⟨S67108864, .f32⟩
  | .hbm, ⟨8, _⟩ => ⟨S_, .i32⟩
  | .hbm, ⟨9, _⟩ => ⟨S16777216, .i32⟩
  | .hbm, ⟨10, _⟩ => ⟨S16777216, .i1⟩
  | .hbm, ⟨11, _⟩ => ⟨S_, .i32⟩
  | .hbm, ⟨12, _⟩ => ⟨S16777216, .i32⟩
  | .hbm, ⟨13, _⟩ => ⟨S16777216, .i32⟩
  | .hbm, ⟨14, _⟩ => ⟨S16777216, .i32⟩
  | .hbm, ⟨15, _⟩ => ⟨S16777216x1, .i32⟩
  | .hbm, ⟨16, _⟩ => ⟨S67108864, .f32⟩
  | .hbm, ⟨17, _⟩ => ⟨S16x128x128x256, .f32⟩
  | .local _ .vmem, ⟨0, _⟩ => ⟨S2x64x64x256, .i32⟩
  | .local _ .vmem, ⟨1, _⟩ => ⟨S2x64x64x256, .i32⟩
  | .local _ .vmem, ⟨2, _⟩ => ⟨S2x64x64x256, .i32⟩
  | .local _ .vmem, ⟨3, _⟩ => ⟨S2x64x64x256, .i32⟩
  | _, _ => ⟨S16x64x64x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_c_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x64x64x256 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x64x64x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S2x64x64x256_d0_w32 : S2x64x64x256.Iotas .tc 32 [0]
  iota_S2x64x64x256_d3_w32 : S2x64x64x256.Iotas .tc 32 [3]
  inb_S2x64x64x256_S2x64x64x256_0_0_0_0 : ∀ a, (![0, 0, 0, 0] : Fin 4 → Nat) a + S2x64x64x256.size a ≤ S2x64x64x256.size a
  h_S2x64x64x256 : 0 < S2x64x64x256.numel
  natLt_1_32 : 1 < 32
  shapeCasts_S16x64x64x256_S16777216 : S16x64x64x256.ShapeCasts S16777216
  bcast_S_S67108864 : S_.BroadcastsInDim S67108864 (![] : Fin 0 → Fin S67108864.rank)
  bcast_S_S16777216 : S_.BroadcastsInDim S16777216 (![] : Fin 0 → Fin S16777216.rank)
  bcast_S16777216_S16777216x1_0 : S16777216.BroadcastsInDim S16777216x1 (![0] : Fin 1 → Fin S16777216x1.rank)
  shapeCasts_S67108864_S16x128x128x256 : S67108864.ShapeCasts S16x128x128x256
  scatter_S67108864_S16777216x1_S16777216_n_0_0_1_wf : ScatterDims.WF S67108864 S16777216x1 S16777216 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x64x64x256.size a ≤ S16x64x64x256.size a
  hwx0_0 : ∀ i : grid0.Coords, EltTy.bits .i32 = 32 ∨ (Rect.block (s := S16x64x64x256) S2x64x64x256.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x64x64x256.size a ≤ S16x64x64x256.size a
  hwx0_1 : ∀ i : grid0.Coords, EltTy.bits .i32 = 32 ∨ (Rect.block (s := S16x64x64x256) S2x64x64x256.size (cc0_transform_1 i) (hinb0_1 i)).WholeWords (EltTy.packing .i32)

variable [Facts₀]

def scatter_S67108864_S16777216x1_S16777216_n_0_0_1 : ScatterDims S67108864 S16777216x1 S16777216 where
  updateWindowDims := []
  insertedWindowDims := [0]
  scatterDimsToOperandDims := [0]
  indexVectorDim := 1
  wf := scatter_S67108864_S16777216x1_S16777216_n_0_0_1_wf

abbrev win0_0 : Pipeline.Window sig grid0 :=
  Pipeline.Window.ofSpec (Memref.whole main_arg1) S2x64x64x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2x64x64x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x64x64x256 : Shape := ⟨4, ![16, 64, 64, 256]⟩
abbrev S16x128x128x256 : Shape := ⟨4, ![16, 128, 128, 256]⟩
abbrev S_ : Shape := ⟨0, ![]⟩
abbrev S16 : Shape := ⟨1, ![16]⟩
abbrev S16x1x1x1 : Shape := ⟨4, ![16, 1, 1, 1]⟩
abbrev S256 : Shape := ⟨1, ![256]⟩
abbrev S1x1x1x256 : Shape := ⟨4, ![1, 1, 1, 256]⟩
abbrev S16x64x64x256x1 : Shape := ⟨5, ![16, 64, 64, 256, 1]⟩
abbrev S16x64x64x256x4 : Shape := ⟨5, ![16, 64, 64, 256, 4]⟩

abbrev nBuf : Space → Nat
  | .hbm => 103
  | .vmem => 0
  | .smem => 0
  | _ => 0

abbrev bufTy : (tb : Table) → Fin (tcTables nBuf tb) → BufTy
  | .hbm, ⟨0, _⟩ => ⟨S16x64x64x256, .f32⟩
  | .hbm, ⟨1, _⟩ => ⟨S16x64x64x256, .i32⟩
  | .hbm, ⟨2, _⟩ => ⟨S16x128x128x256, .f32⟩
  | .hbm, ⟨3, _⟩ => ⟨S_, .i32⟩
  | .hbm, ⟨4, _⟩ => ⟨S_, .i32⟩
  | .hbm, ⟨5, _⟩ => ⟨S16x64x64x256, .i32⟩
  | .hbm, ⟨6, _⟩ => ⟨S16x64x64x256, .i32⟩
  | .hbm, ⟨7, _⟩ => ⟨S16x64x64x256, .i32⟩
  | .hbm, ⟨8, _⟩ => ⟨S_, .i32⟩
  | .hbm, ⟨9, _⟩ => ⟨S16x64x64x256, .i32⟩
  | .hbm, ⟨10, _⟩ => ⟨S16x64x64x256, .i1⟩
  | .hbm, ⟨11, _⟩ => ⟨S16x64x64x256, .i32⟩
  | .hbm, ⟨12, _⟩ => ⟨S16x64x64x256, .i32⟩
  | .hbm, ⟨13, _⟩ => ⟨S_, .i32⟩
  | .hbm, ⟨14, _⟩ => ⟨S16x64x64x256, .i32⟩
  | .hbm, ⟨15, _⟩ => ⟨S16x64x64x256, .i1⟩
  | .hbm, ⟨16, _⟩ => ⟨S16x64x64x256, .i1⟩
  | .hbm, ⟨17, _⟩ => ⟨S_, .i32⟩
  | .hbm, ⟨18, _⟩ => ⟨S16x64x64x256, .i32⟩
  | .hbm, ⟨19, _⟩ => ⟨S16x64x64x256, .i32⟩
  | .hbm, ⟨20, _⟩ => ⟨S16x64x64x256, .i32⟩
  | .hbm, ⟨21, _⟩ => ⟨S_, .i32⟩
  | .hbm, ⟨22, _⟩ => ⟨S_, .i32⟩
  | .hbm, ⟨23, _⟩ => ⟨S16x64x64x256, .i32⟩
  | .hbm, ⟨24, _⟩ => ⟨S16x64x64x256, .i32⟩
  | .hbm, ⟨25, _⟩ => ⟨S16x64x64x256, .i32⟩
  | .hbm, ⟨26, _⟩ => ⟨S_, .i32⟩
  | .hbm, ⟨27, _⟩ => ⟨S16x64x64x256, .i32⟩
  | .hbm, ⟨28, _⟩ => ⟨S16x64x64x256, .i1⟩
  | .hbm, ⟨29, _⟩ => ⟨S16x64x64x256, .i32⟩
  | .hbm, ⟨30, _⟩ => ⟨S16x64x64x256, .i32⟩
  | .hbm, ⟨31, _⟩ => ⟨S_, .i32⟩
  | .hbm, ⟨32, _⟩ => ⟨S16x64x64x256, .i32⟩
  | .hbm, ⟨33, _⟩ => ⟨S16x64x64x256, .i1⟩
  | .hbm, ⟨34, _⟩ => ⟨S16x64x64x256, .i1⟩
  | .hbm, ⟨35, _⟩ => ⟨S_, .i32⟩
  | .hbm, ⟨36, _⟩ => ⟨S16x64x64x256, .i32⟩
  | .hbm, ⟨37, _⟩ => ⟨S16x64x64x256, .i32⟩
  | .hbm, ⟨38, _⟩ => ⟨S16x64x64x256, .i32⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S16x64x64x256, .i32⟩
  | .hbm, ⟨46, _⟩ => ⟨S16x64x64x256, .i32⟩
  | .hbm, ⟨47, _⟩ => ⟨S_, .i32⟩
  | .hbm, ⟨48, _⟩ => ⟨S16x64x64x256, .i32⟩
  | .hbm, ⟨49, _⟩ => ⟨S16x64x64x256, .i1⟩
  | .hbm, ⟨50, _⟩ => ⟨S_, .i32⟩
  | .hbm, ⟨51, _⟩ => ⟨S16x64x64x256, .i32⟩
  | .hbm, ⟨52, _⟩ => ⟨S16x64x64x256, .i1⟩
  | .hbm, ⟨53, _⟩ => ⟨S_, .i32⟩
  | .hbm, ⟨54, _⟩ => ⟨S_, .i1⟩
  | .hbm, ⟨55, _⟩ => ⟨S16x64x64x256, .i1⟩
  | .hbm, ⟨56, _⟩ => ⟨S16x64x64x256, .i1⟩
  | .hbm, ⟨57, _⟩ => ⟨S16x64x64x256, .i1⟩
  | .hbm, ⟨58, _⟩ => ⟨S16x64x64x256, .i32⟩
  | .hbm, ⟨59, _⟩ => ⟨S16x64x64x256, .i32⟩
  | .hbm, ⟨60, _⟩ => ⟨S16x64x64x256, .i32⟩
  | .hbm, ⟨61, _⟩ => ⟨S16, .i32⟩
  | .hbm, ⟨62, _⟩ => ⟨S16x1x1x1, .i32⟩
  | .hbm, ⟨63, _⟩ => ⟨S256, .i32⟩
  | .hbm, ⟨64, _⟩ => ⟨S1x1x1x256, .i32⟩
  | .hbm, ⟨65, _⟩ => ⟨S16x64x64x256, .i32⟩
  | .hbm, ⟨66, _⟩ => ⟨S16x64x64x256, .i32⟩
  | .hbm, ⟨67, _⟩ => ⟨S_, .f32⟩
  | .hbm, ⟨68, _⟩ => ⟨S16x128x128x256, .f32⟩
  | .hbm, ⟨69, _⟩ => ⟨S_, .i32⟩
  | .hbm, ⟨70, _⟩ => ⟨S16x64x64x256, .i32⟩
  | .hbm, ⟨71, _⟩ => ⟨S16x64x64x256, .i1⟩
  | .hbm, ⟨72, _⟩ => ⟨S_, .i32⟩
  | .hbm, ⟨73, _⟩ => ⟨S16x64x64x256, .i32⟩
  | .hbm, ⟨74, _⟩ => ⟨S16x64x64x256, .i32⟩
  | .hbm, ⟨75, _⟩ => ⟨S16x64x64x256, .i32⟩
  | .hbm, ⟨76, _⟩ => ⟨S_, .i32⟩
  | .hbm, ⟨77, _⟩ => ⟨S16x64x64x256, .i32⟩
  | .hbm, ⟨78, _⟩ => ⟨S16x64x64x256, .i1⟩
  | .hbm, ⟨79, _⟩ => ⟨S_, .i32⟩
  | .hbm, ⟨80, _⟩ => ⟨S16x64x64x256, .i32⟩
  | .hbm, ⟨81, _⟩ => ⟨S16x64x64x256, .i32⟩
  | .hbm, ⟨82, _⟩ => ⟨S16x64x64x256, .i32⟩
  | .hbm, ⟨83, _⟩ => ⟨S_, .i32⟩
  | .hbm, ⟨84, _⟩ => ⟨S16x64x64x256, .i32⟩
  | .hbm, ⟨85, _⟩ => ⟨S16x64x64x256, .i1⟩
  | .hbm, ⟨86, _⟩ => ⟨S_, .i32⟩
  | .hbm, ⟨87, _⟩ => ⟨S16x64x64x256, .i32⟩
  | .hbm, ⟨88, _⟩ => ⟨S16x64x64x256, .i32⟩
  | .hbm, ⟨89, _⟩ => ⟨S16x64x64x256, .i32⟩
  | .hbm, ⟨90, _⟩ => ⟨S_, .i32⟩
  | .hbm, ⟨91, _⟩ => ⟨S16x64x64x256, .i32⟩
  | .hbm, ⟨92, _⟩ => ⟨S16x64x64x256, .i1⟩
  | .hbm, ⟨93, _⟩ => ⟨S_, .i32⟩
  | .hbm, ⟨94, _⟩ => ⟨S16x64x64x256, .i32⟩
  | .hbm, ⟨95, _⟩ => ⟨S16x64x64x256, .i32⟩
  | .hbm, ⟨96, _⟩ => ⟨S16x64x64x256, .i32⟩
  | .hbm, ⟨97, _⟩ => ⟨S16x64x64x256x1, .i32⟩
  | .hbm, ⟨98, _⟩ => ⟨S16x64x64x256x1, .i32⟩
  | .hbm, ⟨99, _⟩ => ⟨S16x64x64x256x1, .i32⟩
  | .hbm, ⟨100, _⟩ => ⟨S16x64x64x256x1, .i32⟩
  | .hbm, ⟨101, _⟩ => ⟨S16x64x64x256x4, .i32⟩
  | .hbm, ⟨102, _⟩ => ⟨S16x128x128x256, .f32⟩
  | _, _ => ⟨S16x64x64x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_call0_c : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_call0_c_0 : Ref sig .tc := ⟨.hbm, 17, rfl⟩
abbrev main_call0_v12 : Ref sig .tc := ⟨.hbm, 18, rfl⟩
abbrev main_call0_v13 : Ref sig .tc := ⟨.hbm, 19, rfl⟩
abbrev main_v0 : Ref sig .tc := ⟨.hbm, 20, rfl⟩
abbrev main_c_0 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_v7 : Ref sig .tc := ⟨.hbm, 29, rfl⟩
abbrev main_call1_v8 : Ref sig .tc := ⟨.hbm, 30, rfl⟩
abbrev main_call1_c : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_0 : Ref sig .tc := ⟨.hbm, 35, rfl⟩
abbrev main_call1_v12 : Ref sig .tc := ⟨.hbm, 36, rfl⟩
abbrev main_call1_v13 : Ref sig .tc := ⟨.hbm, 37, rfl⟩
abbrev main_v1 : Ref sig .tc := ⟨.hbm, 38, rfl⟩
abbrev main_c_1 : Ref sig .tc := ⟨.hbm, 39, rfl⟩
abbrev main_call2_v0 : Ref sig .tc := ⟨.hbm, 40, rfl⟩
abbrev main_call2_c : Ref sig .tc := ⟨.hbm, 41, rfl⟩
abbrev main_call2_v1 : Ref sig .tc := ⟨.hbm, 42, rfl⟩
abbrev main_call2_c_0 : Ref sig .tc := ⟨.hbm, 43, rfl⟩
abbrev main_call2_v2 : Ref sig .tc := ⟨.hbm, 44, rfl⟩
abbrev main_call2_v3 : Ref sig .tc := ⟨.hbm, 45, rfl⟩
abbrev main_call2_v4 : Ref sig .tc := ⟨.hbm, 46, rfl⟩
abbrev main_call2_c_1 : Ref sig .tc := ⟨.hbm, 47, rfl⟩
abbrev main_call2_v5 : Ref sig .tc := ⟨.hbm, 48, rfl⟩
abbrev main_call2_v6 : Ref sig .tc := ⟨.hbm, 49, rfl⟩
abbrev main_call2_c_2 : Ref sig .tc := ⟨.hbm, 50, rfl⟩
abbrev main_call2_v7 : Ref sig .tc := ⟨.hbm, 51, rfl⟩
abbrev main_call2_v8 : Ref sig .tc := ⟨.hbm, 52, rfl⟩
abbrev main_call2_c_3 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_v12 : Ref sig .tc := ⟨.hbm, 57, rfl⟩
abbrev main_call2_v13 : Ref sig .tc := ⟨.hbm, 58, rfl⟩
abbrev main_call2_v14 : Ref sig .tc := ⟨.hbm, 59, rfl⟩
abbrev main_v2 : Ref sig .tc := ⟨.hbm, 60, rfl⟩
abbrev main_v3 : Ref sig .tc := ⟨.hbm, 61, rfl⟩
abbrev main_v4 : Ref sig .tc := ⟨.hbm, 62, rfl⟩
abbrev main_v5 : Ref sig .tc := ⟨.hbm, 63, rfl⟩
abbrev main_v6 : Ref sig .tc := ⟨.hbm, 64, rfl⟩
abbrev main_v7 : Ref sig .tc := ⟨.hbm, 65, rfl⟩
abbrev main_v8 : Ref sig .tc := ⟨.hbm, 66, rfl⟩
abbrev main_cst : Ref sig .tc := ⟨.hbm, 67, rfl⟩
abbrev main_v9 : Ref sig .tc := ⟨.hbm, 68, rfl⟩
abbrev main_c_2 : Ref sig .tc := ⟨.hbm, 69, rfl⟩
abbrev main_v10 : Ref sig .tc := ⟨.hbm, 70, rfl⟩
abbrev main_v11 : Ref sig .tc := ⟨.hbm, 71, rfl⟩
abbrev main_c_3 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_c_4 : Ref sig .tc := ⟨.hbm, 76, rfl⟩
abbrev main_v15 : Ref sig .tc := ⟨.hbm, 77, rfl⟩
abbrev main_v16 : Ref sig .tc := ⟨.hbm, 78, rfl⟩
abbrev main_c_5 : Ref sig .tc := ⟨.hbm, 79, rfl⟩
abbrev main_v17 : Ref sig .tc := ⟨.hbm, 80, rfl⟩
abbrev main_v18 : Ref sig .tc := ⟨.hbm, 81, rfl⟩
abbrev main_v19 : Ref sig .tc := ⟨.hbm, 82, rfl⟩
abbrev main_c_6 : Ref sig .tc := ⟨.hbm, 83, rfl⟩
abbrev main_v20 : Ref sig .tc := ⟨.hbm, 84, rfl⟩
abbrev main_v21 : Ref sig .tc := ⟨.hbm, 85, rfl⟩
abbrev main_c_7 : Ref sig .tc := ⟨.hbm, 86, rfl⟩
abbrev main_v22 : Ref sig .tc := ⟨.hbm, 87, rfl⟩
abbrev main_v23 : Ref sig .tc := ⟨.hbm, 88, rfl⟩
abbrev main_v24 : Ref sig .tc := ⟨.hbm, 89, rfl⟩
abbrev main_c_8 : Ref sig .tc := ⟨.hbm, 90, rfl⟩
abbrev main_v25 : Ref sig .tc := ⟨.hbm, 91, rfl⟩
abbrev main_v26 : Ref sig .tc := ⟨.hbm, 92, rfl⟩
abbrev main_c_9 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_v31 : Ref sig .tc := ⟨.hbm, 98, rfl⟩
abbrev main_v32 : Ref sig .tc := ⟨.hbm, 99, rfl⟩
abbrev main_v33 : Ref sig .tc := ⟨.hbm, 100, rfl⟩
abbrev main_v34 : Ref sig .tc := ⟨.hbm, 101, rfl⟩
abbrev main_v35 : Ref sig .tc := ⟨.hbm, 102, rfl⟩

abbrev nD : Nat := 1
abbrev τ : Topo := Topo.v7x

variable {F : FTy → Type} [FloatOps F]

class Facts₀ : Prop where
  bcast_S_S16x64x64x256 : S_.BroadcastsInDim S16x64x64x256 (![] : Fin 0 → Fin S16x64x64x256.rank)
  bcast_S16_S16x1x1x1_0 : S16.BroadcastsInDim S16x1x1x1 (![0] : Fin 1 → Fin S16x1x1x1.rank)
  bcast_S256_S1x1x1x256_3 : S256.BroadcastsInDim S1x1x1x256 (![3] : Fin 1 → Fin S1x1x1x256.rank)
  bcast_S16x1x1x1_S16x64x64x256_0_1_2_3 : S16x1x1x1.BroadcastsInDim S16x64x64x256 (![0, 1, 2, 3] : Fin 4 → Fin S16x64x64x256.rank)
  bcast_S1x1x1x256_S16x64x64x256_0_1_2_3 : S1x1x1x256.BroadcastsInDim S16x64x64x256 (![0, 1, 2, 3] : Fin 4 → Fin S16x64x64x256.rank)
  bcast_S_S16x128x128x256 : S_.BroadcastsInDim S16x128x128x256 (![] : Fin 0 → Fin S16x128x128x256.rank)
  bcast_S16x64x64x256_S16x64x64x256x1_0_1_2_3 : S16x64x64x256.BroadcastsInDim S16x64x64x256x1 (![0, 1, 2, 3] : Fin 4 → Fin S16x64x64x256x1.rank)
  concatenates_S16x64x64x256x1_S16x64x64x256x1_S16x64x64x256x1_S16x64x64x256x1_S16x64x64x256x4_d4 : Shape.Concatenates [S16x64x64x256x1, S16x64x64x256x1, S16x64x64x256x1, S16x64x64x256x1] S16x64x64x256x4 4
  scatter_S16x128x128x256_S16x64x64x256x4_S16x64x64x256_n_0123_0123_4_wf : ScatterDims.WF S16x128x128x256 S16x64x64x256x4 S16x64x64x256 [] [0, 1, 2, 3] [0, 1, 2, 3] 4

variable [Facts₀]

def scatter_S16x128x128x256_S16x64x64x256x4_S16x64x64x256_n_0123_0123_4 : ScatterDims S16x128x128x256 S16x64x64x256x4 S16x64x64x256 where
  updateWindowDims := []
  insertedWindowDims := [0, 1, 2, 3]
  scatterDimsToOperandDims := [0, 1, 2, 3]
  indexVectorDim := 4
  wf := scatter_S16x128x128x256_S16x64x64x256x4_S16x64x64x256_n_0123_0123_4_wf

class Facts : Prop extends Facts₀ where

variable [Facts]
-- ==== Proof.IntDefs.lean ====
/-
  The kernel's integer decode on ONE 32-bit word, spelt as the kernel's vector unit computes it lane by lane:
  the floor of k / 256 as a truncating signed division corrected by one where the signs of dividend and divisor
  differ and the remainder is not zero, and the flat destination  b · (128·128·256) + floor(k / 256) · 256 + f.
-/
import Idealize.ShloMosaic.PureOps

namespace Cert.Unpool.Int

open Idealize.ShloMosaic

/-- The floor of `k / 256`: `k sdiv 256`, less one where `sign k ≠ sign 256` and `k srem 256 ≠ 0`. -/
def kq (k : BitVec 32) : BitVec 32 :=
  Scalar.select
    (IntOp.andi
      (IntOp.cmpi .ne (IntOp.subi ((IntOp.cmpi .sgt k 0#32).setWidth 32) ((IntOp.cmpi .slt k 0#32).setWidth 32))
        (Scalar.subi (Scalar.extui (Scalar.cmpi .sgt 256#32 0#32)) (Scalar.extui (Scalar.cmpi .slt 256#32 0#32))))
      (IntOp.cmpi .ne (IntOp.remsi .vector k 256#32) 0#32))
    (IntOp.subi (IntOp.divsi .vector k 256#32) 1#32)
    (IntOp.divsi .vector k 256#32)

/-- The flat destination of an update: batch word `bb`, pooling index `k`, channel word `ff`. -/
def kflat (bb k ff : BitVec 32) : BitVec 32 :=
  IntOp.addi (IntOp.addi (IntOp.muli bb 4194304#32) (IntOp.muli (kq k) 256#32)) ff

end Cert.Unpool.Int
-- ==== Proof.KernelFlat.lean ====
/-
  The kernel's index array. The Pallas call walks the pooling indices in 8 blocks of 2 batches; at block `t` the body
  computes, lane by lane, the flat destination  (2·t + p) · (128·128·256) + floor(k / 256) · 256 + f  of the update at
  in-block position (p, h, w, f) with pooling index k, and stores the block whole. The blocks tile the array, so after
  the call the array holds at (b, h, w, f) the flat destination of that update with batch word b.
-/
import proofs.«175987_j63015760166976_2_alg».proof.Proof.KernelIdealFrame
import proofs.«175987_j63015760166976_2_alg».proof.Proof.IntDefs
import Idealize.ShloMosaic.Lib.Pipeline.Value
import Idealize.ShloMosaic.Lib.ValueIdx

noncomputable section

namespace Cert.KernelIdeal.KValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.GenP Cert.Unpool.Int

variable {F : FTy → Type} [FloatOps F]

/-- The flat destination of every update, as one function of the pooling indices. -/
def flatOf (mask : IVec S16x64x64x256 32) : IVec S16x64x64x256 32 :=
  fun i => kflat (BitVec.ofNat 32 (i 0).val) (mask i) (BitVec.ofNat 32 (i 3).val)

theorem hz : (![0, 0, 0, 0] : Fin 4 → Nat) = fun _ => 0 := funext fun a => by fin_cases a <;> rfl

/-- The batch word the body builds at block `t`, in-block batch `p`: `p + t · 2` as 32-bit words is `2·t + p`. -/
theorem batch_word' (t p : Nat) (ht : t < 8) (hp : p < 2) :
    IntOp.addi (BitVec.ofNat 32 p) (Scalar.muli (BitVec.ofNat 32 t) 2#32) = BitVec.ofNat 32 (t * 2 + 1 * p) := by
  apply BitVec.eq_of_toNat_eq
  simp only [IntOp.addi, Scalar.muli, IntOp.muli, BitVec.toNat_add, BitVec.toNat_mul, BitVec.toNat_ofNat]
  omega

/-- The body's stored value at in-block index `y`, from the loaded block `x0`, at grid point `i`. -/
theorem pay_apply (i : grid0.Coords) (x0 : Vec F S2x64x64x256 .i32) (y : S2x64x64x256.Idx) :
    k0_pay1 i x0 y = kflat (IntOp.addi (BitVec.ofNat 32 (y 0).val) (Scalar.muli (BitVec.ofNat 32 (i 0).val) 2#32)) (x0 y)
      (BitVec.ofNat 32 (y 3).val) := by
  unfold k0_pay1 kflat kq
  simp only [addi, subi, muli, andi, divsi, remsi, cmpi, extui, select, broadcast]
  rw [iota_single_apply .tc S2x64x64x256 32 (0 : Fin 4), iota_single_apply .tc S2x64x64x256 32 (3 : Fin 4)]

variable (m : (ℓ : Loc nD τ sig) → Buf (Elt F) ℓ) (ρ : Dev nD → PrngReg)

/-- The printed index maps, decided over the grid: both windows' block at point `t` is block `t` along the batch
    axis and the whole extent of the others, and the grid coordinate of point `t` is `t`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ (grid0.coords t 0).val = t.val :=
  (by decide +kernel : ∀ t : Fin grid0.N, _)

/-- WHAT POINT `t` WRITES BACK is block `t` of the flat destinations of the pooling indices as the call finds them. -/
theorem flushed_eq (c : Dev nD) (t : Fin cfg0.N) :
    (dats m 0 c).flushed 1 t = ((cfg0.win 1).blk t).view.read (Elt F) (flatOf (V m c main_arg1)) := by
  show (cfg0.win 1).cut (grid0.coords t) ((dats m 0 c).after 1 t) = _
  rw [after0_1]
  unfold out0_1
  rw [View.canon_unit_zero hz]
  simp only [View.ld_unit_zero (S := S2x64x64x256) hz]
  obtain ⟨a0, a1, a2, a3, b0, b1, b2, b3, eg⟩ := idx_facts t
  have ht : t.val < 8 := lt_of_lt_of_eq t.isLt N_0
  funext j
  have hj0 : (j 0).val < 2 := (j 0).isLt
  have hj1 : (j 1).val < 64 := (j 1).isLt
  have hj2 : (j 2).val < 64 := (j 2).isLt
  have hj3 : (j 3).val < 256 := (j 3).isLt
  refine (pay_apply (F := F) (grid0.coords t) (iblk m c 0 t) j).trans ?_
  have h0 : ((cfg0.win 0).blk t).view.emb j = ((cfg0.win 1).blk t).view.emb j := by
    funext a; apply Fin.ext
    match a with
    | ⟨0, _⟩ => show win0_0.index t (0 : Fin 4) * 2 + 1 * (j 0).val = win0_1.index t (0 : Fin 4) * 2 + 1 * (j 0).val; omega
    | ⟨1, _⟩ => show win0_0.index t (1 : Fin 4) * 64 + 1 * (j 1).val = win0_1.index t (1 : Fin 4) * 64 + 1 * (j 1).val; omega
    | ⟨2, _⟩ => show win0_0.index t (2 : Fin 4) * 64 + 1 * (j 2).val = win0_1.index t (2 : Fin 4) * 64 + 1 * (j 2).val; omega
    | ⟨3, _⟩ => show win0_0.index t (3 : Fin 4) * 256 + 1 * (j 3).val = win0_1.index t (3 : Fin 4) * 256 + 1 * (j 3).val; omega
  have hb : ((((cfg0.win 1).blk t).view.emb j) 0).val = t.val * 2 + 1 * (j 0).val := by
    show win0_1.index t (0 : Fin 4) * 2 + 1 * (j 0).val = _; omega
  have hf : ((((cfg0.win 1).blk t).view.emb j) 3).val = (j 3).val := by
    show win0_1.index t (3 : Fin 4) * 256 + 1 * (j 3).val = _; omega
  show kflat _ (V m c main_arg1 (((cfg0.win 0).blk t).view.emb j)) _
    = kflat (BitVec.ofNat 32 ((((cfg0.win 1).blk t).view.emb j) 0).val) (V m c main_arg1 (((cfg0.win 1).blk t).view.emb j))
        (BitVec.ofNat 32 ((((cfg0.win 1).blk t).view.emb j) 3).val)
  rw [h0, hb, hf, eg, batch_word' t.val (j 0).val ht hj0]

/-- An index of the array is in point `t`'s block iff each coordinate is in the block's range on its axis. -/
theorem mem_blk (t : Fin cfg0.N) (i : S16x64x64x256.Idx) :
    i ∈ ((cfg0.win 1).blk t).view.set ↔ ∀ a : Fin 4, win0_1.index t a * S2x64x64x256.size a ≤ (i a).val
      ∧ (i a).val < win0_1.index t a * S2x64x64x256.size a + S2x64x64x256.size a := by
  show i ∈ ((View.whole main_v0).slice (win0_1.rect t)).set ↔ _
  rw [View.set_slice_whole, Rect.mem_set_unit]
  exact Iff.rfl

/-- The blocks tile the array: the update of batch `b` is in the block of point `b / 2`. -/
theorem cover (i : S16x64x64x256.Idx) :
    ∃ t : Fin cfg0.N, (cfg0.win 1).flush t = true ∧ i ∈ ((cfg0.win 1).blk t).view.set := by
  have hi0 : (i 0).val < 16 := (i 0).isLt
  have hi1 : (i 1).val < 64 := (i 1).isLt
  have hi2 : (i 2).val < 64 := (i 2).isLt
  have hi3 : (i 3).val < 256 := (i 3).isLt
  let t : Fin cfg0.N := ⟨(i 0).val / 2, lt_of_lt_of_eq (by omega : (i 0).val / 2 < 8) N_0.symm⟩
  have htv : t.val = (i 0).val / 2 := rfl
  obtain ⟨a0, a1, a2, a3, b0, b1, b2, b3, eg⟩ := idx_facts t
  refine ⟨t, flush0_1 t, ?_⟩
  rw [mem_blk]
  intro a
  match a with
  | ⟨0, _⟩ => show win0_1.index t (0 : Fin 4) * 2 ≤ (i 0).val ∧ (i 0).val < win0_1.index t (0 : Fin 4) * 2 + 2; omega
  | ⟨1, _⟩ => show win0_1.index t (1 : Fin 4) * 64 ≤ (i 1).val ∧ (i 1).val < win0_1.index t (1 : Fin 4) * 64 + 64; omega
  | ⟨2, _⟩ => show win0_1.index t (2 : Fin 4) * 64 ≤ (i 2).val ∧ (i 2).val < win0_1.index t (2 : Fin 4) * 64 + 64; omega
  | ⟨3, _⟩ => show win0_1.index t (3 : Fin 4) * 256 ≤ (i 3).val ∧ (i 3).val < win0_1.index t (3 : Fin 4) * 256 + 256; omega

/-- THE INDEX ARRAY after the call: the flat destination of every update. -/
theorem final (c : Dev nD) :
    (dats m 0 c).arrAt 1 cfg0.N = flatOf (m ((c : Thread nD τ).loc main_arg1)) :=
  (dats m 0 c).arrAt_eq_of_cover 1 (flatOf (V m c main_arg1)) (fun t _ => flushed_eq m c t) cover

end Cert.KernelIdeal.KValue

end
-- ==== Proof.KernelTail.lean ====
/-
  The host lines after the Pallas call, as one function of the index array the call leaves and of the updates:
  both are flattened row-major to 16·64·64·256 entries; a negative index would be wrapped once by the length of
  the flat output; the updates are scatter-added at those indices into 16·128·128·256 zeros; and the flat output is
  reshaped to [16, 128, 128, 256].
-/
import proofs.«175987_j63015760166976_2_alg».proof.Proof.KernelFlat
import Idealize.ShloMosaic.Lib.StableHlo.Run

noncomputable section

namespace Cert.KernelIdeal.KValue

open Idealize.ShloMosaic Idealize.ShloMosaic.TcCoe Idealize.SL.Sem
open Cert.KernelIdeal Cert.KernelIdeal.Gen Cert.KernelIdeal.GenP

variable {F : FTy → Type} [FloatOps F]

/-- The flat output before the scatter: 16·128·128·256 zeros. -/
def zerosFlat : FVec F S67108864 .f32 :=
  broadcastInDim S67108864 ![] bcast_S_S67108864 (constant (F := F) S_ .f32 0x00000000#32)

/-- The scatter indices the host builds from an index array: flattened, negative entries wrapped once by the length
    of the flat output, laid out as one column. -/
def idxOf (idxArr : IVec S16x64x64x256 32) : IVec S16777216x1 32 :=
  broadcastInDim S16777216x1 ![0] bcast_S16777216_S16777216x1_0
    (select
      (cmpi .slt (shapeCast S16777216 idxArr shapeCasts_S16x64x64x256_S16777216)
        (broadcastInDim S16777216 ![] bcast_S_S16777216 (constantI S_ 32 0#32)))
      (addi (shapeCast S16777216 idxArr shapeCasts_S16x64x64x256_S16777216)
        (broadcastInDim S16777216 ![] bcast_S_S16777216 (constantI S_ 32 67108864#32)))
      (shapeCast S16777216 idxArr shapeCasts_S16x64x64x256_S16777216))

/-- The lines after the call, applied to an index array and the updates. -/
def tailOf (idxArr : IVec S16x64x64x256 32) (upd : FVec F S16x64x64x256 .f32) : FVec F S16x128x128x256 .f32 :=
  shapeCast S16x128x128x256
    (Host.scatterAdd scatter_S67108864_S16777216x1_S16777216_n_0_0_1 (zerosFlat (F := F)) (idxOf idxArr)
      (shapeCast S16777216 upd shapeCasts_S16x64x64x256_S16777216))
    shapeCasts_S67108864_S16x128x128x256

variable (m : (ℓ : Loc nD τ sig) → Buf (Elt F) ℓ)

/-- What @main's result buffer holds after the lines that follow the call: those lines applied to the index array
    the call leaves (the flat destinations of the updates) and to the updates as launched. -/
theorem tail_eq (c : Dev nD) :
    Pipeline.afterTail₀ cfgs (dats m) 0 (V0 m) [hostOps1] c main_v11
      = tailOf (flatOf (m ((c : Thread nD τ).loc main_arg1))) (m ((c : Thread nD τ).loc main_arg0)) := by
  have e1 : Pipeline.withArrays (cfgs 0).spec c (V0 m c) (fun w => (dats m 0 c).arrAt w (cfgs 0).N) (Proc.devRef .tc main_v0)
      = flatOf (m ((c : Thread nD τ).loc main_arg1)) :=
    (Pipeline.withArrays_arr spec0 launch0.win.arr_inj c _ _ 1).trans (final m c)
  have e0 : Pipeline.withArrays (cfgs 0).spec c (V0 m c) (fun w => (dats m 0 c).arrAt w (cfgs 0).N) (Proc.devRef .tc main_arg0)
      = m ((c : Thread nD τ).loc main_arg0) :=
    (Pipeline.withArrays_of_ne _ c (V0 m c) _ main_arg0 (by exact (by decide : ∀ w, Pipeline.arrRef spec0 w ≠ main_arg0))).trans
      (V_main_arg0 m c)
  unfold Pipeline.afterTail₀
  show StableHlo.after hostOps1 _ (Proc.devRef .tc main_v11) = _
  after_results
  rw [e1, e0]
  rfl

end Cert.KernelIdeal.KValue

end
-- ==== Proof.ScatterFlat.lean ====
/-
  Where the one-axis scatter sends an update. The flat operand has one axis, which the scatter indices name and no
  update window covers: update `j` reads ONE start word, at scatter-indices position (j, 0), signed and unclamped, and
  its window coordinate is zero. So an update whose start word reads as a natural number `n` inside the operand lands
  exactly at position `n` (and one outside would be dropped).
-/
import proofs.«175987_j63015760166976_2_alg».proof.KernelIdeal
import Idealize.ShloMosaic.Lib.ValueIdx

noncomputable section

namespace Cert.KernelIdeal.KValue

open Idealize.ShloMosaic Idealize.ShloMosaic.ValueIdx
open Cert.KernelIdeal

variable [Facts₀]

/-- The flat scatter's dimension numbers. -/
abbrev dK : ScatterDims S67108864 S16777216x1 S16777216 := scatter_S67108864_S16777216x1_S16777216_n_0_0_1

/-- Update `j` reads its one start component at scatter-indices position `(j, 0)`. -/
theorem siIdx_flat (j : S16777216.Idx) (c : Fin dK.scatterDimsToOperandDims.length) :
    dK.siIdx j c = ix2 (j 0 : Fin 16777216) (0 : Fin 1) := by
  funext b
  match b with
  | ⟨0, _⟩ => rfl
  | ⟨1, hb⟩ =>
    apply Fin.ext
    have h1 : (dK.siIdx j c ⟨1, hb⟩).val < 1 := (dK.siIdx j c ⟨1, hb⟩).isLt
    show (dK.siIdx j c ⟨1, hb⟩).val = 0
    omega

/-- The start of update `j` on the operand's axis is that word, read signed. -/
theorem start_flat (j : S16777216.Idx) (idx : IVec S16777216x1 32) (a : Fin S67108864.rank) :
    dK.start j idx a = (idx (ix2 (j 0 : Fin 16777216) (0 : Fin 1))).toInt := by
  have ha : a ∈ dK.scatterDimsToOperandDims := by
    have : a = 0 := Subsingleton.elim _ _
    subst this; simp [scatter_S67108864_S16777216x1_S16777216_n_0_0_1]
  unfold ScatterDims.start
  rw [dif_pos ha, siIdx_flat]
  rfl

/-- No update window: the window coordinate is zero. -/
theorem window_flat (j : S16777216.Idx) (a : Fin S67108864.rank) : dK.window j a = 0 := by
  have : a = 0 := Subsingleton.elim _ _
  subst this
  simp [ScatterDims.window, ScatterDims.sKept, Shape.kept, scatter_S67108864_S16777216x1_S16777216_n_0_0_1]

/-- An update whose start word reads (signed) as `n`, inside the flat operand, lands at position `n`. -/
theorem resultIdx_flat (j : S16777216.Idx) (idx : IVec S16777216x1 32) (n : Nat) (hn : n < 67108864)
    (h : (idx (ix2 (j 0 : Fin 16777216) (0 : Fin 1))).toInt = (n : Int)) :
    dK.resultIdx? j idx = some (ix1 (⟨n, hn⟩ : Fin 67108864)) := by
  have hs : ∀ a, dK.start j idx a + dK.window j a = (n : Int) := fun a => by
    rw [start_flat, window_flat, h]; simp
  have hsz : ∀ a : Fin S67108864.rank, S67108864.size a = 67108864 := fun a => by
    have : a = 0 := Subsingleton.elim _ _
    subst this; rfl
  unfold ScatterDims.resultIdx?
  rw [dif_pos (fun a => by rw [hs a, hsz a]; exact ⟨by omega, by omega⟩)]
  refine congrArg some (funext fun a => Fin.ext ?_)
  have : a = 0 := Subsingleton.elim _ _
  subst this
  show (dK.start j idx 0 + dK.window j 0).toNat = n
  rw [hs 0]; simp

end Cert.KernelIdeal.KValue

end
-- ==== Proof.IntDecode.lean ====
/-
  The kernel's integer decode on one 32-bit word whose signed value lies in [0, 128·128·256):
  the corrected truncating division is the floor k / 256, the flat destination
  b · (128·128·256) + (k / 256) · 256 + f does not wrap, and the host's wrap of negative indices leaves it alone.
-/
import proofs.«175987_j63015760166976_2_alg».proof.Proof.IntDefs

namespace Cert.Unpool.Int

open Idealize.ShloMosaic

/-- A word of non-negative signed value has its sign bit clear. -/
theorem msb_false_of_nonneg (k : BitVec 32) (h0 : 0 ≤ k.toInt) : k.msb = false := by
  rw [BitVec.msb_eq_toInt]; simp; omega

/-- A word of non-negative signed value: signed and unsigned readings agree. -/
theorem toInt_eq_toNat_of_nonneg (k : BitVec 32) (h0 : 0 ≤ k.toInt) : k.toInt = (k.toNat : Int) :=
  BitVec.toInt_eq_toNat_of_msb (msb_false_of_nonneg k h0)

/-- The sign of the divisor 256 is 1. -/
theorem const_sign :
    Scalar.subi (Scalar.extui (Scalar.cmpi .sgt 256#32 0#32)) (Scalar.extui (Scalar.cmpi .slt 256#32 0#32)) = 1#32 := by
  decide

/-- Division by 256 is not at the signed-division corner. -/
theorem not_corner_256 (k : BitVec 32) : ¬ IntOp.SDivCorner k 256#32 := by
  intro h; rcases h with h | ⟨_, h⟩ <;> exact absurd h (by decide)

/-- Truncating signed division of a non-negative word by 256. -/
theorem divsi_256 (k : BitVec 32) (h0 : 0 ≤ k.toInt) :
    IntOp.divsi .vector k 256#32 = BitVec.ofNat 32 (k.toNat / 256) := by
  have hmsb := msb_false_of_nonneg k h0
  unfold IntOp.divsi
  rw [if_neg (not_corner_256 k), BitVec.sdiv_eq, hmsb]
  have : (256#32).msb = false := by decide
  rw [this]
  apply BitVec.eq_of_toNat_eq
  simp only [BitVec.udiv_eq, BitVec.toNat_udiv, BitVec.toNat_ofNat, Nat.reducePow, Nat.reduceMod]
  have := k.isLt
  omega

/-- Signed remainder of a non-negative word by 256. -/
theorem remsi_256 (k : BitVec 32) (h0 : 0 ≤ k.toInt) :
    IntOp.remsi .vector k 256#32 = BitVec.ofNat 32 (k.toNat % 256) := by
  have hmsb := msb_false_of_nonneg k h0
  unfold IntOp.remsi
  rw [if_neg (not_corner_256 k), BitVec.srem_eq, hmsb]
  have : (256#32).msb = false := by decide
  rw [this]
  apply BitVec.eq_of_toNat_eq
  simp only [BitVec.umod_eq, BitVec.toNat_umod, BitVec.toNat_ofNat, Nat.reducePow, Nat.reduceMod]
  have := k.isLt
  omega

/-- On a non-negative word the correction of the truncating division never fires: the signs of dividend
    and divisor differ only at k = 0, where the remainder is zero. -/
theorem cond_ne_one (k : BitVec 32) (h0 : 0 ≤ k.toInt) :
    IntOp.andi
      (IntOp.cmpi .ne
        (IntOp.subi ((IntOp.cmpi .sgt k 0#32).setWidth 32) ((IntOp.cmpi .slt k 0#32).setWidth 32))
        (Scalar.subi (Scalar.extui (Scalar.cmpi .sgt 256#32 0#32)) (Scalar.extui (Scalar.cmpi .slt 256#32 0#32))))
      (IntOp.cmpi .ne (IntOp.remsi .vector k 256#32) 0#32) ≠ 1 := by
  rw [const_sign]
  by_cases hk : k = 0#32
  · subst hk; decide
  · have hn := toInt_eq_toNat_of_nonneg k h0
    have hpos : 0 < k.toInt := by
      have : k.toNat ≠ 0 := fun h => hk (BitVec.eq_of_toNat_eq (by simpa using h))
      omega
    have h1 : IntOp.cmpi .sgt k 0#32 = 1#1 := by
      simp only [IntOp.cmpi, BitVec.slt_eq_decide, BitVec.toInt_zero, hpos, decide_true, BitVec.ofBool_true]; rfl
    have h2 : IntOp.cmpi .slt k 0#32 = 0#1 := by
      have : ¬ k.toInt < 0 := by omega
      simp only [IntOp.cmpi, BitVec.slt_eq_decide, BitVec.toInt_zero, this, decide_false, BitVec.ofBool_false]; rfl
    rw [h1, h2]
    have h3 : IntOp.cmpi .ne (IntOp.subi ((1#1).setWidth 32) ((0#1).setWidth 32)) 1#32 = 0#1 := by decide
    rw [h3]
    simp [IntOp.andi]

/-- The kernel's floor(k / 256) is the natural-number quotient. -/
theorem kq_eq (k : BitVec 32) (h0 : 0 ≤ k.toInt) (h1 : k.toInt < 4194304) :
    kq k = BitVec.ofNat 32 (k.toNat / 256) := by
  unfold kq Scalar.select
  rw [if_neg (cond_ne_one k h0), divsi_256 k h0]

/-- A word below 2^26 read signed is itself. -/
theorem toInt_ofNat_lt (n : Nat) (h : n < 67108864) : (BitVec.ofNat 32 n).toInt = (n : Int) := by
  have hn : (BitVec.ofNat 32 n).toNat = n := by
    simp only [BitVec.toNat_ofNat, Nat.reducePow]; omega
  rw [BitVec.toInt_eq_toNat_of_lt (by rw [hn]; omega), hn]

/-- The flat destination as a word. -/
theorem kflat_eq (b f : Nat) (k : BitVec 32) (h0 : 0 ≤ k.toInt) (h1 : k.toInt < 4194304) :
    kflat (BitVec.ofNat 32 b) k (BitVec.ofNat 32 f) = BitVec.ofNat 32 (b * 4194304 + k.toNat / 256 * 256 + f) := by
  unfold kflat
  rw [kq_eq k h0 h1]
  simp only [IntOp.addi, IntOp.muli, BitVec.ofNat_add, BitVec.ofNat_mul]

/-- The flat destination is below the flat array's length 16 · 128 · 128 · 256. -/
theorem kflat_lt (b f : Nat) (hb : b < 16) (hf : f < 256) (k : BitVec 32) (h0 : 0 ≤ k.toInt)
    (h1 : k.toInt < 4194304) : b * 4194304 + k.toNat / 256 * 256 + f < 67108864 := by
  have hn := toInt_eq_toNat_of_nonneg k h0
  have hk : k.toNat < 4194304 := by omega
  have hq : k.toNat / 256 * 256 ≤ k.toNat := Nat.div_mul_le_self _ _
  omega

/-- The flat destination does not wrap: read signed, it is b · 4194304 + (k / 256) · 256 + f. -/
theorem kflat_toInt (b f : Nat) (hb : b < 16) (hf : f < 256) (k : BitVec 32) (h0 : 0 ≤ k.toInt)
    (h1 : k.toInt < 4194304) :
    (kflat (BitVec.ofNat 32 b) k (BitVec.ofNat 32 f)).toInt
      = ((b * 4194304 + k.toNat / 256 * 256 + f : Nat) : Int) := by
  rw [kflat_eq b f k h0 h1]
  exact toInt_ofNat_lt _ (kflat_lt b f hb hf k h0 h1)

/-- The batch word: position p inside block t of two batches is batch 2 t + p. -/
theorem batch_word (t p : Nat) (ht : t < 8) (hp : p < 2) :
    IntOp.addi (BitVec.ofNat 32 p) (Scalar.muli (BitVec.ofNat 32 t) 2#32) = BitVec.ofNat 32 (2 * t + p) := by
  apply BitVec.eq_of_toNat_eq
  simp only [IntOp.addi, Scalar.muli, IntOp.muli, BitVec.toNat_add, BitVec.toNat_mul, BitVec.toNat_ofNat,
    Nat.reducePow, Nat.reduceMod]
  omega

/-- The wrap of negative indices is the identity on a non-negative word. -/
theorem wrap_of_nonneg (v : BitVec 32) (h : 0 ≤ v.toInt) :
    Scalar.select (IntOp.cmpi .slt v 0#32) (IntOp.addi v 67108864#32) v = v := by
  have h2 : IntOp.cmpi .slt v 0#32 = 0#1 := by
    have : ¬ v.toInt < 0 := by omega
    simp only [IntOp.cmpi, BitVec.slt_eq_decide, BitVec.toInt_zero, this, decide_false, BitVec.ofBool_false]; rfl
  unfold Scalar.select
  rw [h2, if_neg (by decide)]

end Cert.Unpool.Int
-- ==== Proof.Spec.lean ====
/-
  Max-unpooling as a sum, stated once for both programs.

  An update at position (b, h, w, f) of the pooled tensor carries a pooling index k = mask (b, h, w, f),
  a flattened position of ONE batch's output plane [128, 128, 256]: row k / (128·256), column (k / 256) mod 128
  (the channel k mod 256 is not read: the update keeps its own channel f). The unpooled tensor holds at each
  output position the sum of the updates sent there; updates sent to the same position add up.
  Both programs compute this sum when every pooling index lies inside the plane, 0 ≤ k < 128·128·256.
-/
import Idealize.ShloMosaic.PureOps.Ideal
import Idealize.ShloMosaic.Lib.ValueIdx

noncomputable section

namespace Cert.Unpool

open Idealize.ShloMosaic Idealize.ShloMosaic.ValueIdx

/-- The pooled tensor's shape: batch, pooled rows, pooled columns, channels. -/
abbrev SUpd : Shape := ⟨4, ![16, 64, 64, 256]⟩
/-- The unpooled tensor's shape: batch, rows, columns, channels. -/
abbrev SOut : Shape := ⟨4, ![16, 128, 128, 256]⟩

/-- Every pooling index names a position of one batch's output plane. -/
def InRange (mask : IVec SUpd 32) : Prop :=
  ∀ J : SUpd.Idx, 0 ≤ (mask J).toInt ∧ (mask J).toInt < 4194304

/-- Where the update at `J = (b, h, w, f)` is added: batch `b`, row `k / 32768`, column `(k / 256) mod 128`,
    channel `f`, for `k` the pooling index at `J` (the row is reduced mod 128 only to be a coordinate at all:
    inside the plane `k / 32768 < 128` already). -/
def dest (mask : IVec SUpd 32) (J : SUpd.Idx) : SOut.Idx :=
  ix4 (J 0 : Fin 16) (⟨(mask J).toNat / 32768 % 128, Nat.mod_lt _ (by decide)⟩ : Fin 128)
    (⟨(mask J).toNat / 256 % 128, Nat.mod_lt _ (by decide)⟩ : Fin 128) (J 3 : Fin 256)

open Classical in
/-- The unpooled tensor: at each output position the sum of the updates sent there. -/
def unpool (upd : SUpd.Idx → EReal) (mask : IVec SUpd 32) : SOut.Idx → EReal :=
  fun i => ∑ J ∈ Finset.univ.filter (fun J => dest mask J = i), upd J

end Cert.Unpool

end
-- ==== Proof.KernelBridge.lean ====
/-
  The kernel's result is the unpooled tensor. Flattening the pooled tensor row-major matches update `j` of the flat
  scatter with the update `J = (b, h, w, f)` of the pooled tensor at the same row-major position. Inside the plane
  (0 ≤ k < 128·128·256 for the pooling index k at J) the flat destination  N = b·4194304 + (k / 256)·256 + f  is a
  natural number below 16·4194304, so the wrap of negative indices leaves it alone and the scatter sends update `j` to
  flat position N. The output position (b', y', x', f') sits at flat position  n = ((b'·128 + y')·128 + x')·256 + f',
  and N = n exactly when b = b', k / 32768 = y', (k / 256) mod 128 = x', f = f' (write k / 256 = 128·(k / 32768) +
  (k / 256) mod 128): the updates the flat scatter adds at n are those the unpooling sends to (b', y', x', f'), and the
  two sums are one sum re-indexed. Nothing is distributed or cancelled: no finiteness of the updates is used.
-/
import proofs.«175987_j63015760166976_2_alg».proof.Proof.KernelTail
import proofs.«175987_j63015760166976_2_alg».proof.Proof.ScatterFlat
import proofs.«175987_j63015760166976_2_alg».proof.Proof.IntDecode
import proofs.«175987_j63015760166976_2_alg».proof.Proof.Spec
import Idealize.ShloMosaic.PureOps.Ideal.Laws
import Idealize.ShloMosaic.Lib.Pipeline.Value

noncomputable section

namespace Cert.KernelIdeal.KValue

open Idealize.ShloMosaic Idealize.ShloMosaic.ValueIdx
open Cert.KernelIdeal Cert.KernelIdeal.Gen Cert.Unpool Cert.Unpool.Int

/-- Row-major matching of the flat updates with the pooled tensor's positions. -/
abbrev eJ : S16777216.Idx ≃ S16x64x64x256.Idx := Shape.reshapeEquiv shapeCasts_S16x64x64x256_S16777216

/-- The start word of update `j`: the flat destination of the matched update, wrapped if negative. -/
theorem idxOf_apply (mask : IVec S16x64x64x256 32) (j : S16777216.Idx) :
    idxOf (flatOf mask) (ix2 (j 0 : Fin 16777216) (0 : Fin 1))
      = Scalar.select (IntOp.cmpi .slt (flatOf mask (eJ j)) 0#32) (IntOp.addi (flatOf mask (eJ j)) 67108864#32)
          (flatOf mask (eJ j)) := by
  unfold idxOf
  rw [broadcastInDim_apply _ _ _ _ j (fun a => by
    have : a = 0 := Subsingleton.elim _ _
    subst this
    rw [if_neg (by decide)]; rfl)]
  rfl

/-- Inside the plane, update `j` lands at the flat position  b·4194304 + (k / 256)·256 + f  of its matched update. -/
theorem lands (mask : IVec S16x64x64x256 32) (h : InRange mask) (j : S16777216.Idx) :
    ∃ hN : ((eJ j) 0).val * 4194304 + (mask (eJ j)).toNat / 256 * 256 + ((eJ j) 3).val < 67108864,
      dK.resultIdx? j (idxOf (flatOf mask))
        = some (ix1 (⟨((eJ j) 0).val * 4194304 + (mask (eJ j)).toNat / 256 * 256 + ((eJ j) 3).val, hN⟩ : Fin 67108864)) := by
  obtain ⟨h0, h1⟩ := h (eJ j)
  have hb : ((eJ j) 0).val < 16 := ((eJ j) 0).isLt
  have hf : ((eJ j) 3).val < 256 := ((eJ j) 3).isLt
  have hlt := kflat_lt ((eJ j) 0).val ((eJ j) 3).val hb hf (mask (eJ j)) h0 h1
  have hti := kflat_toInt ((eJ j) 0).val ((eJ j) 3).val hb hf (mask (eJ j)) h0 h1
  refine ⟨hlt, resultIdx_flat j (idxOf (flatOf mask)) _ hlt ?_⟩
  rw [idxOf_apply]
  show (Scalar.select (IntOp.cmpi .slt (kflat (BitVec.ofNat 32 ((eJ j) 0).val) (mask (eJ j)) (BitVec.ofNat 32 ((eJ j) 3).val)) 0#32)
      (IntOp.addi (kflat (BitVec.ofNat 32 ((eJ j) 0).val) (mask (eJ j)) (BitVec.ofNat 32 ((eJ j) 3).val)) 67108864#32)
      (kflat (BitVec.ofNat 32 ((eJ j) 0).val) (mask (eJ j)) (BitVec.ofNat 32 ((eJ j) 3).val))).toInt = _
  rw [wrap_of_nonneg _ (by rw [hti]; omega), hti]

/-- Every entry of the flat output before the scatter is zero. -/
theorem zerosFlat_apply (i : S67108864.Idx) : zerosFlat (F := Ideal) i = (0 : EReal) := by
  unfold zerosFlat
  simp only [broadcastInDim, constant, Ideal.ofBits_def, Ideal.ofBits_zero_f32]

/-- The reshape of a flat array to [16, 128, 128, 256] reads it at the row-major position. -/
theorem unflatten_apply (R : FVec Ideal S67108864 .f32) (b' : Fin 16) (y' x' : Fin 128) (f' : Fin 256)
    (hn : ((b'.val * 128 + y'.val) * 128 + x'.val) * 256 + f'.val < 67108864) :
    shapeCast S16x128x128x256 R shapeCasts_S67108864_S16x128x128x256 (ix4 b' y' x' f')
      = R (ix1 (⟨((b'.val * 128 + y'.val) * 128 + x'.val) * 256 + f'.val, hn⟩ : Fin 67108864)) :=
  shapeCast_apply R _ _ _ (by rw [Shape.rowMajor_val_one, Shape.rowMajor_val_four]; rfl)

/-- The host's accumulating scatter at the ideal instance is the exact sum, whatever its operands. -/
theorem scatterAdd_apply (x : FVec Ideal S67108864 .f32) (idx : IVec S16777216x1 32) (u : FVec Ideal S16777216 .f32)
    (i : S67108864.Idx) :
    Host.scatterAdd (F := Ideal) scatter_S67108864_S16777216x1_S16777216_n_0_0_1 x idx u i
      = Ideal.hostScatterAdd dK x idx u i := rfl

/-- THE KERNEL'S RESULT: the host lines after the call, on the flat destinations of in-plane pooling indices, give the
    unpooled tensor. -/
theorem tailOf_eq (mask : IVec S16x64x64x256 32) (upd : FVec Ideal S16x64x64x256 .f32) (h : InRange mask) :
    tailOf (F := Ideal) (flatOf mask) upd = unpool upd mask := by
  funext i
  obtain ⟨b', y', x', f', rfl⟩ : ∃ (b' : Fin 16) (y' x' : Fin 128) (f' : Fin 256), i = ix4 b' y' x' f' :=
    ⟨i 0, i 1, i 2, i 3, eq_ix4 i⟩
  have hb' := b'.isLt
  have hy' := y'.isLt
  have hx' := x'.isLt
  have hf' := f'.isLt
  have hn : ((b'.val * 128 + y'.val) * 128 + x'.val) * 256 + f'.val < 67108864 := by omega
  unfold tailOf
  rw [unflatten_apply _ b' y' x' f' hn, scatterAdd_apply]
  unfold Ideal.hostScatterAdd unpool
  rw [zerosFlat_apply, zero_add]
  refine Finset.sum_equiv eJ (fun j => ?_) (fun j _ => rfl)
  simp only [Finset.mem_filter, Finset.mem_univ, true_and]
  obtain ⟨hN, hr⟩ := lands mask h j
  rw [hr]
  obtain ⟨h0, h1⟩ := h (eJ j)
  have hk : ((mask (eJ j)).toNat : Int) < 4194304 := by rw [← toInt_eq_toNat_of_nonneg _ h0]; exact h1
  have hb : ((eJ j) 0).val < 16 := ((eJ j) 0).isLt
  have hf : ((eJ j) 3).val < 256 := ((eJ j) 3).isLt
  constructor
  · intro e
    have eN : ((eJ j) 0).val * 4194304 + (mask (eJ j)).toNat / 256 * 256 + ((eJ j) 3).val
        = ((b'.val * 128 + y'.val) * 128 + x'.val) * 256 + f'.val :=
      congrArg Fin.val (congrFun (Option.some.inj e) (0 : Fin 1))
    unfold dest
    refine funext fun a => ?_
    match a with
    | ⟨0, _⟩ => exact Fin.ext (by show ((eJ j) 0).val = b'.val; omega)
    | ⟨1, _⟩ => exact Fin.ext (by show (mask (eJ j)).toNat / 32768 % 128 = y'.val; omega)
    | ⟨2, _⟩ => exact Fin.ext (by show (mask (eJ j)).toNat / 256 % 128 = x'.val; omega)
    | ⟨3, _⟩ => exact Fin.ext (by show ((eJ j) 3).val = f'.val; omega)
  · intro e
    have c0 : ((eJ j) 0).val = b'.val := congrArg Fin.val (congrFun e (0 : Fin 4))
    have c1 : (mask (eJ j)).toNat / 32768 % 128 = y'.val := congrArg Fin.val (congrFun e (1 : Fin 4))
    have c2 : (mask (eJ j)).toNat / 256 % 128 = x'.val := congrArg Fin.val (congrFun e (2 : Fin 4))
    have c3 : ((eJ j) 3).val = f'.val := congrArg Fin.val (congrFun e (3 : Fin 4))
    exact congrArg some (congrArg (ix1 (n := 67108864)) (Fin.ext (by
      show ((eJ j) 0).val * 4194304 + (mask (eJ j)).toNat / 256 * 256 + ((eJ j) 3).val
        = ((b'.val * 128 + y'.val) * 128 + x'.val) * 256 + f'.val
      omega)))

end Cert.KernelIdeal.KValue

end
-- ==== Proof.KernelRun.lean ====
/-
  The kernel program's run, read: every weakly fair execution ends with the result buffer at the unpooled tensor of
  the arguments, and the arguments unchanged — when the pooling indices lie inside the plane. The frame run names
  what the lines after the Pallas call leave; those lines applied to the call's index array are the unpooling.
-/
import proofs.«175987_j63015760166976_2_alg».proof.Proof.KernelBridge

noncomputable section

namespace Cert.KernelIdeal.KValue

open Idealize.ShloMosaic Idealize.ShloMosaic.TcCoe Idealize.SL.Sem
open Cert.KernelIdeal Cert.KernelIdeal.Gen Cert.KernelIdeal.GenP Cert.Unpool

variable (m : (ℓ : Loc nD τ sig) → Buf (Elt Ideal) ℓ) (ρ : Dev nD → PrngReg)

/-- The kernel program at the ideal instance: the result is the unpooled tensor, the arguments end as launched. -/
theorem run (h : ∀ c : Dev nD, InRange (m ((c.tc : Thread nD τ).loc main_arg1))) :
    θ_run (defs (F := Ideal)) (onTc (τ := τ) (main (F := Ideal))) ⟨m, fun _ => 0, ρ⟩ (fun r => ∀ c : Dev nD,
      r.2.mem ((c.tc : Thread nD τ).loc main_v11)
        = unpool (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ hr c =>
    ⟨(((hr c).2 main_v11 (Pipeline.mem_restRefs_of main_v11 (by decide) (by decide))).trans (tail_eq m c)).trans
        (tailOf_eq _ _ (h c)),
      (((hr c).2 main_arg0 (Pipeline.mem_restRefs_of main_arg0 (by decide) (by decide))).trans (W_main_arg0 m (dats m) c)),
      ((hr c).1 0).trans (((dats m 0 c).arrAt_in 0 rfl _).trans ((A_eq m c 0).trans (V_main_arg1 m c))),
      (((hr c).2 main_arg2 (Pipeline.mem_restRefs_of main_arg2 (by decide) (by decide))).trans (W_main_arg2 m (dats m) c))⟩)
    (run_main m ρ)

end Cert.KernelIdeal.KValue

end
-- ==== Proof.PreDecode.lean ====
/-
  From the precondition to the range of the pooling indices: the precondition's last two conjuncts are
  "every pooling index is ≥ 0" and "every pooling index is < 128·128·256", each an all-reduction by `and`.
-/
import proofs.«175987_j63015760166976_2_alg».proof.Pre_finite_inputs
import proofs.«175987_j63015760166976_2_alg».proof.Proof.Gen.Pre_finite_inputs
import proofs.«175987_j63015760166976_2_alg».proof.Proof.Spec
import Idealize.ShloMosaic.Lib.ReduceAll

namespace Cert.Unpool

open Idealize.ShloMosaic

/-- The rank-zero shape has one index. -/
instance subsingleton_scalarIdx : Subsingleton Cert.Pre_finite_inputs.S_.Idx :=
  ⟨fun _ _ => funext fun d => d.elim0⟩

/-- Under the precondition every pooling index lies inside one batch's output plane. -/
theorem inRange_of_pre {F : FTy → Type} [FloatOps F] [Cert.Pre_finite_inputs.Facts]
    (a0 : FVec F Cert.Pre_finite_inputs.S16x64x64x256 .f32) (a1 : IVec Cert.Pre_finite_inputs.S16x64x64x256 32)
    (a2 : FVec F Cert.Pre_finite_inputs.S16x128x128x256 .f32)
    (h : Cert.Pre_finite_inputs.fn (F := F) a0 a1 a2 = (fun _ => 1#1)) : InRange a1 := by
  have h0 := congrFun h ValueIdx.ix0
  dsimp only [Cert.Pre_finite_inputs.fn, Cert.Pre_finite_inputs.fn_part1, andi] at h0
  obtain ⟨h12, h15⟩ := IntOp.andi_eq_one.1 h0
  obtain ⟨_, h11⟩ := IntOp.andi_eq_one.1 h12
  intro J
  have hge := Host.reduce_andi_all _ _ _ _ _ h11 J
  have hlt := Host.reduce_andi_all _ _ _ _ _ h15 J
  dsimp only [cmpi, broadcastInDim, constantI] at hge hlt
  rw [IntOp.cmpi_sge] at hge
  rw [IntOp.cmpi_slt] at hlt
  have e0 : (0#32 : BitVec 32).toInt = 0 := by decide
  have e1 : (4194304#32 : BitVec 32).toInt = 4194304 := by decide
  rw [e0] at hge
  rw [e1] at hlt
  exact ⟨hge, hlt⟩

end Cert.Unpool
-- ==== Proof.RefOps.lean ====
/-
  The reference program's @main as a list of its 100 host operations: the three outlined calls (two floor
  divisions and a remainder, each with its inner select) are listed in place over the call's own buffers, so
  the program is one straight line of operations, each writing one buffer.
-/
import proofs.«175987_j63015760166976_2_alg».proof.Proof.Gen.ReferenceIdeal
import Idealize.ShloMosaic.Lib.StableHlo.Run

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-- @main's 100 operations, in order, the calls unfolded. -/
abbrev ops : List (HloOp τ sig (Elt F)) :=
  [
    nullary main_c (constantI S_ 32 32768#32),
    TRef.unary (.of main_c) main_call0.v0 id,
    TRef.unary main_call0.v0 main_call0.v1 (broadcastInDim S16x64x64x256 ![] bcast_S_S16x64x64x256),
    TRef.binary (.of main_arg1) main_call0.v1 main_call0.v2 Host.divsi,
    TRef.unary (.of main_arg1) main_call0.v3 signi,
    TRef.unary main_call0.v0 main_call0.v4 signi,
    TRef.unary main_call0.v4 main_call0.v5 (broadcastInDim S16x64x64x256 ![] bcast_S_S16x64x64x256),
    TRef.binary main_call0.v3 main_call0.v5 main_call0.v6 (cmpi .ne),
    TRef.unary main_call0.v0 main_call0.v7 (broadcastInDim S16x64x64x256 ![] bcast_S_S16x64x64x256),
    TRef.binary (.of main_arg1) main_call0.v7 main_call0.v8 Host.remsi,
    TRef.nullary main_call0.c (constantI S_ 32 0#32),
    TRef.unary main_call0.c main_call0.v9 (broadcastInDim S16x64x64x256 ![] bcast_S_S16x64x64x256),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16x64x64x256 ![] bcast_S_S16x64x64x256),
    TRef.binary main_call0.v2 main_call0.v12 main_call0.v13 subi,
    TRef.ternary main_call0.v11 main_call0.v13 main_call0.v2 main_call0.call0.v0 select,
    nullary main_c_0 (constantI S_ 32 256#32),
    TRef.unary (.of main_c_0) main_call1.v0 id,
    TRef.unary main_call1.v0 main_call1.v1 (broadcastInDim S16x64x64x256 ![] bcast_S_S16x64x64x256),
    TRef.binary (.of main_arg1) main_call1.v1 main_call1.v2 Host.divsi,
    TRef.unary (.of main_arg1) main_call1.v3 signi,
    TRef.unary main_call1.v0 main_call1.v4 signi,
    TRef.unary main_call1.v4 main_call1.v5 (broadcastInDim S16x64x64x256 ![] bcast_S_S16x64x64x256),
    TRef.binary main_call1.v3 main_call1.v5 main_call1.v6 (cmpi .ne),
    TRef.unary main_call1.v0 main_call1.v7 (broadcastInDim S16x64x64x256 ![] bcast_S_S16x64x64x256),
    TRef.binary (.of main_arg1) main_call1.v7 main_call1.v8 Host.remsi,
    TRef.nullary main_call1.c (constantI S_ 32 0#32),
    TRef.unary main_call1.c main_call1.v9 (broadcastInDim S16x64x64x256 ![] bcast_S_S16x64x64x256),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16x64x64x256 ![] bcast_S_S16x64x64x256),
    TRef.binary main_call1.v2 main_call1.v12 main_call1.v13 subi,
    TRef.ternary main_call1.v11 main_call1.v13 main_call1.v2 main_call1.call0.v0 select,
    nullary main_c_1 (constantI S_ 32 128#32),
    TRef.unary (.of main_c_1) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S16x64x64x256 ![] bcast_S_S16x64x64x256),
    TRef.binary (.of main_v1) main_call2.v3 main_call2.v4 Host.remsi,
    TRef.nullary main_call2.c_1 (constantI S_ 32 0#32),
    TRef.unary main_call2.c_1 main_call2.v5 (broadcastInDim S16x64x64x256 ![] bcast_S_S16x64x64x256),
    TRef.binary main_call2.v4 main_call2.v5 main_call2.v6 (cmpi .ne),
    TRef.nullary main_call2.c_2 (constantI S_ 32 0#32),
    TRef.unary main_call2.c_2 main_call2.v7 (broadcastInDim S16x64x64x256 ![] bcast_S_S16x64x64x256),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S16x64x64x256 ![] bcast_S_S16x64x64x256),
    TRef.binary main_call2.v8 main_call2.v10 main_call2.v11 (cmpi .ne),
    TRef.binary main_call2.v11 main_call2.v6 main_call2.v12 andi,
    TRef.unary main_call2.call0.v0 main_call2.v13 (broadcastInDim S16x64x64x256 ![] bcast_S_S16x64x64x256),
    TRef.binary main_call2.v4 main_call2.v13 main_call2.v14 addi,
    TRef.ternary main_call2.v12 main_call2.v14 main_call2.v4 main_call2.v15 select,
    nullary main_v3 (iotaInDim S16 32 0),
    unary main_v3 main_v4 (broadcastInDim S16x1x1x1 ![0] bcast_S16_S16x1x1x1_0 : (⟨S16, .i32⟩ : BufTy).Contents (Elt F) → (⟨S16x1x1x1, .i32⟩ : BufTy).Contents (Elt F)),
    nullary main_v5 (iotaInDim S256 32 0),
    unary main_v5 main_v6 (broadcastInDim S1x1x1x256 ![3] bcast_S256_S1x1x1x256_3 : (⟨S256, .i32⟩ : BufTy).Contents (Elt F) → (⟨S1x1x1x256, .i32⟩ : BufTy).Contents (Elt F)),
    unary main_v4 main_v7 (broadcastInDim S16x64x64x256 ![0, 1, 2, 3] bcast_S16x1x1x1_S16x64x64x256_0_1_2_3 : (⟨S16x1x1x1, .i32⟩ : BufTy).Contents (Elt F) → (⟨S16x64x64x256, .i32⟩ : BufTy).Contents (Elt F)),
    unary main_v6 main_v8 (broadcastInDim S16x64x64x256 ![0, 1, 2, 3] bcast_S1x1x1x256_S16x64x64x256_0_1_2_3 : (⟨S1x1x1x256, .i32⟩ : BufTy).Contents (Elt F) → (⟨S16x64x64x256, .i32⟩ : BufTy).Contents (Elt F)),
    nullary main_cst (constant S_ .f32 0x00000000#32),
    unary main_cst main_v9 (broadcastInDim S16x128x128x256 ![] bcast_S_S16x128x128x256 : (⟨S_, .f32⟩ : BufTy).Contents (Elt F) → (⟨S16x128x128x256, .f32⟩ : BufTy).Contents (Elt F)),
    nullary main_c_2 (constantI S_ 32 0#32),
    unary main_c_2 main_v10 (broadcastInDim S16x64x64x256 ![] bcast_S_S16x64x64x256 : (⟨S_, .i32⟩ : BufTy).Contents (Elt F) → (⟨S16x64x64x256, .i32⟩ : BufTy).Contents (Elt F)),
    binary main_v7 main_v10 main_v11 (cmpi .slt : (⟨S16x64x64x256, .i32⟩ : BufTy).Contents (Elt F) → (⟨S16x64x64x256, .i32⟩ : BufTy).Contents (Elt F) → (⟨S16x64x64x256, .i1⟩ : BufTy).Contents (Elt F)),
    nullary main_c_3 (constantI S_ 32 16#32),
    unary main_c_3 main_v12 (broadcastInDim S16x64x64x256 ![] bcast_S_S16x64x64x256 : (⟨S_, .i32⟩ : BufTy).Contents (Elt F) → (⟨S16x64x64x256, .i32⟩ : BufTy).Contents (Elt F)),
    binary main_v7 main_v12 main_v13 (addi : (⟨S16x64x64x256, .i32⟩ : BufTy).Contents (Elt F) → (⟨S16x64x64x256, .i32⟩ : BufTy).Contents (Elt F) → (⟨S16x64x64x256, .i32⟩ : BufTy).Contents (Elt F)),
    ternary main_v11 main_v13 main_v7 main_v14 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    nullary main_c_4 (constantI S_ 32 0#32),
    unary main_c_4 main_v15 (broadcastInDim S16x64x64x256 ![] bcast_S_S16x64x64x256 : (⟨S_, .i32⟩ : BufTy).Contents (Elt F) → (⟨S16x64x64x256, .i32⟩ : BufTy).Contents (Elt F)),
    binary main_v0 main_v15 main_v16 (cmpi .slt : (⟨S16x64x64x256, .i32⟩ : BufTy).Contents (Elt F) → (⟨S16x64x64x256, .i32⟩ : BufTy).Contents (Elt F) → (⟨S16x64x64x256, .i1⟩ : BufTy).Contents (Elt F)),
    nullary main_c_5 (constantI S_ 32 128#32),
    unary main_c_5 main_v17 (broadcastInDim S16x64x64x256 ![] bcast_S_S16x64x64x256 : (⟨S_, .i32⟩ : BufTy).Contents (Elt F) → (⟨S16x64x64x256, .i32⟩ : BufTy).Contents (Elt F)),
    binary main_v0 main_v17 main_v18 (addi : (⟨S16x64x64x256, .i32⟩ : BufTy).Contents (Elt F) → (⟨S16x64x64x256, .i32⟩ : BufTy).Contents (Elt F) → (⟨S16x64x64x256, .i32⟩ : BufTy).Contents (Elt F)),
    ternary main_v16 main_v18 main_v0 main_v19 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    nullary main_c_6 (constantI S_ 32 0#32),
    unary main_c_6 main_v20 (broadcastInDim S16x64x64x256 ![] bcast_S_S16x64x64x256 : (⟨S_, .i32⟩ : BufTy).Contents (Elt F) → (⟨S16x64x64x256, .i32⟩ : BufTy).Contents (Elt F)),
    binary main_v2 main_v20 main_v21 (cmpi .slt : (⟨S16x64x64x256, .i32⟩ : BufTy).Contents (Elt F) → (⟨S16x64x64x256, .i32⟩ : BufTy).Contents (Elt F) → (⟨S16x64x64x256, .i1⟩ : BufTy).Contents (Elt F)),
    nullary main_c_7 (constantI S_ 32 128#32),
    unary main_c_7 main_v22 (broadcastInDim S16x64x64x256 ![] bcast_S_S16x64x64x256 : (⟨S_, .i32⟩ : BufTy).Contents (Elt F) → (⟨S16x64x64x256, .i32⟩ : BufTy).Contents (Elt F)),
    binary main_v2 main_v22 main_v23 (addi : (⟨S16x64x64x256, .i32⟩ : BufTy).Contents (Elt F) → (⟨S16x64x64x256, .i32⟩ : BufTy).Contents (Elt F) → (⟨S16x64x64x256, .i32⟩ : BufTy).Contents (Elt F)),
    ternary main_v21 main_v23 main_v2 main_v24 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    nullary main_c_8 (constantI S_ 32 0#32),
    unary main_c_8 main_v25 (broadcastInDim S16x64x64x256 ![] bcast_S_S16x64x64x256 : (⟨S_, .i32⟩ : BufTy).Contents (Elt F) → (⟨S16x64x64x256, .i32⟩ : BufTy).Contents (Elt F)),
    binary main_v8 main_v25 main_v26 (cmpi .slt : (⟨S16x64x64x256, .i32⟩ : BufTy).Contents (Elt F) → (⟨S16x64x64x256, .i32⟩ : BufTy).Contents (Elt F) → (⟨S16x64x64x256, .i1⟩ : BufTy).Contents (Elt F)),
    nullary main_c_9 (constantI S_ 32 256#32),
    unary main_c_9 main_v27 (broadcastInDim S16x64x64x256 ![] bcast_S_S16x64x64x256 : (⟨S_, .i32⟩ : BufTy).Contents (Elt F) → (⟨S16x64x64x256, .i32⟩ : BufTy).Contents (Elt F)),
    binary main_v8 main_v27 main_v28 (addi : (⟨S16x64x64x256, .i32⟩ : BufTy).Contents (Elt F) → (⟨S16x64x64x256, .i32⟩ : BufTy).Contents (Elt F) → (⟨S16x64x64x256, .i32⟩ : BufTy).Contents (Elt F)),
    ternary main_v26 main_v28 main_v8 main_v29 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    unary main_v14 main_v30 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    unary main_v19 main_v31 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    unary main_v24 main_v32 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    unary main_v29 main_v33 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    nary ![main_v30, main_v31, main_v32, main_v33] main_v34 (fun u => concatenate S16x64x64x256x4 4 [⟨S16x64x64x256x1, u 0⟩, ⟨S16x64x64x256x1, u 1⟩, ⟨S16x64x64x256x1, u 2⟩, ⟨S16x64x64x256x1, u 3⟩] concatenates_S16x64x64x256x1_S16x64x64x256x1_S16x64x64x256x1_S16x64x64x256x1_S16x64x64x256x4_d4),
    ternary main_v9 main_v34 main_arg0 main_v35 ((fun x i u => Host.scatterAdd scatter_S16x128x128x256_S16x64x64x256x4_S16x64x64x256_n_0123_0123_4 x i u) : (⟨S16x128x128x256, .f32⟩ : BufTy).Contents (Elt F) → (⟨S16x64x64x256x4, .i32⟩ : BufTy).Contents (Elt F) → (⟨S16x64x64x256, .f32⟩ : BufTy).Contents (Elt F) → (⟨S16x128x128x256, .f32⟩ : BufTy).Contents (Elt F)) ]

set_option maxRecDepth 8192 in
set_option maxHeartbeats 8000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., nullary_bufs_sub .., unary_bufs_sub .., unary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., unary_bufs_sub .., nary_bufs_sub .., ternary_bufs_sub ..⟩

end Cert.ReferenceIdeal.RefValue

end
-- ==== Proof.RefOut.lean ====
/-
  The reference's result as a pure function of its two argument arrays, the integer stages named: the floor
  division and the remainder as jax writes them out of truncating division, the wrap of a negative index, the four
  components of every update's index vector, the index table, and the scatter-add into zeros.
-/
import proofs.«175987_j63015760166976_2_alg».proof.ReferenceIdeal

noncomputable section

namespace Cert.ReferenceIdeal.RefValue

open Cert.ReferenceIdeal Idealize.ShloMosaic
open Cert.ReferenceIdeal.Facts₀

variable {F : FTy → Type} [FloatOps F] [Facts₀]

/-- A scalar word at every position of the pooled shape. -/
abbrev splat {α : Type} (v : S_.Idx → α) : S16x64x64x256.Idx → α :=
  broadcastInDim S16x64x64x256 ![] bcast_S_S16x64x64x256 v

/-- The floor division of every word of `x` by the scalar `d`, out of the truncating one: the quotient rounded
    toward zero, less one where the signs of dividend and divisor differ and the truncating remainder is not zero. -/
def floorDiv (x : IVec S16x64x64x256 32) (d : IVec S_ 32) : IVec S16x64x64x256 32 :=
  select
    (andi (cmpi .ne (signi x) (splat (signi d)))
      (cmpi .ne (Host.remsi x (splat d)) (splat (constantI S_ 32 0#32))))
    (subi (Host.divsi x (splat d)) (splat (constantI S_ 32 1#32)))
    (Host.divsi x (splat d))

/-- The divisor the remainder uses: one where the given divisor is zero. -/
def safeDiv (d : IVec S_ 32) : IVec S_ 32 :=
  select (cmpi .eq d (constantI S_ 32 0#32)) (constantI S_ 32 1#32) d

/-- The remainder that takes the divisor's sign, out of the truncating one: with `r` the truncating remainder by the
    divisor (one in place of a zero divisor), which takes the dividend's sign, it is `r + d` where `r` is not zero
    and `r` is negative exactly when `d` is not, and `r` elsewhere. -/
def floorRem (x : IVec S16x64x64x256 32) (d : IVec S_ 32) : IVec S16x64x64x256 32 :=
  select
    (andi
      (cmpi .ne (cmpi .slt (Host.remsi x (splat (safeDiv d))) (splat (constantI S_ 32 0#32)))
        (splat (cmpi .slt (safeDiv d) (constantI S_ 32 0#32))))
      (cmpi .ne (Host.remsi x (splat (safeDiv d))) (splat (constantI S_ 32 0#32))))
    (addi (Host.remsi x (splat (safeDiv d))) (splat (safeDiv d)))
    (Host.remsi x (splat (safeDiv d)))

/-- A negative index counted from the end of an axis of `n` positions. -/
def wrapNeg (v : IVec S16x64x64x256 32) (n : BitVec 32) : IVec S16x64x64x256 32 :=
  select (cmpi .slt v (splat (constantI S_ 32 0#32))) (addi v (splat (constantI S_ 32 n))) v

/-- The batch coordinate of every position, as a word. -/
def batchIota : IVec S16x64x64x256 32 :=
  broadcastInDim S16x64x64x256 ![0, 1, 2, 3] bcast_S16x1x1x1_S16x64x64x256_0_1_2_3
    (broadcastInDim S16x1x1x1 ![0] bcast_S16_S16x1x1x1_0 (iotaInDim S16 32 0))

/-- The channel coordinate of every position, as a word. -/
def chanIota : IVec S16x64x64x256 32 :=
  broadcastInDim S16x64x64x256 ![0, 1, 2, 3] bcast_S1x1x1x256_S16x64x64x256_0_1_2_3
    (broadcastInDim S1x1x1x256 ![3] bcast_S256_S1x1x1x256_3 (iotaInDim S256 32 0))

/-- The four components of every update's index vector: batch, row, column, channel. -/
def idxB : IVec S16x64x64x256 32 := wrapNeg batchIota 16#32
def idxY (mask : IVec S16x64x64x256 32) : IVec S16x64x64x256 32 :=
  wrapNeg (floorDiv mask (constantI S_ 32 32768#32)) 128#32
def idxX (mask : IVec S16x64x64x256 32) : IVec S16x64x64x256 32 :=
  wrapNeg (floorRem (floorDiv mask (constantI S_ 32 256#32)) (constantI S_ 32 128#32)) 128#32
def idxF : IVec S16x64x64x256 32 := wrapNeg chanIota 256#32

/-- A component as a column of the index table. -/
abbrev col (v : IVec S16x64x64x256 32) : IVec S16x64x64x256x1 32 :=
  broadcastInDim S16x64x64x256x1 ![0, 1, 2, 3] bcast_S16x64x64x256_S16x64x64x256x1_0_1_2_3 v

/-- The index table: at each update position its four-component index vector. -/
def idxTable (mask : IVec S16x64x64x256 32) : IVec S16x64x64x256x4 32 :=
  concatenate S16x64x64x256x4 4
    [⟨S16x64x64x256x1, col idxB⟩, ⟨S16x64x64x256x1, col (idxY mask)⟩, ⟨S16x64x64x256x1, col (idxX mask)⟩, ⟨S16x64x64x256x1, col idxF⟩]
    concatenates_S16x64x64x256x1_S16x64x64x256x1_S16x64x64x256x1_S16x64x64x256x1_S16x64x64x256x4_d4

/-- The reference's result: the updates scatter-added into zeros at the index table's positions. -/
def refOut (upd : FVec F S16x64x64x256 .f32) (mask : IVec S16x64x64x256 32) : FVec F S16x128x128x256 .f32 :=
  Host.scatterAdd scatter_S16x128x128x256_S16x64x64x256x4_S16x64x64x256_n_0123_0123_4
    (broadcastInDim S16x128x128x256 ![] bcast_S_S16x128x128x256 (constant S_ .f32 0x00000000#32))
    (idxTable mask) upd

end Cert.ReferenceIdeal.RefValue

end
-- ==== Proof.RefRun.lean ====
/-
  The run of the reference's @main, read back: every weakly fair execution terminates with the result buffer at
  `refOut` of the two argument arrays' launch contents (the operations composed: the floor divisions, the remainder,
  the wraps, the index table, the scatter-add into zeros), and the three argument arrays unchanged.

  The line of 100 operations is read in five stretches, each one's results as functions of the buffers it reads:
  what a buffer holds after two stretches is what the second leaves from what the first left.
-/
import proofs.«175987_j63015760166976_2_alg».proof.Proof.RefOps
import proofs.«175987_j63015760166976_2_alg».proof.Proof.RefOut

noncomputable section

namespace Cert.ReferenceIdeal.RefValue

open Cert.ReferenceIdeal Idealize.ShloMosaic Idealize.ShloMosaic.TcCoe Idealize.SL.Sem Idealize.ShloMosaic.StableHlo
open Cert.ReferenceIdeal.Facts₀

variable {F : FTy → Type} [FloatOps F]

/-! ## The line in five stretches

The row's floor division, the column's floor division, the column's remainder, the coordinate arrays with the
zeros and the wraps, and last the index table with the scatter: each stretch's results as functions of the buffers
it reads, and the buffers it leaves alone. -/

abbrev seg1 : List (HloOp τ sig (Elt F)) := [
    nullary main_c (constantI S_ 32 32768#32),
    TRef.unary (.of main_c) main_call0.v0 id,
    TRef.unary main_call0.v0 main_call0.v1 (broadcastInDim S16x64x64x256 ![] bcast_S_S16x64x64x256),
    TRef.binary (.of main_arg1) main_call0.v1 main_call0.v2 Host.divsi,
    TRef.unary (.of main_arg1) main_call0.v3 signi,
    TRef.unary main_call0.v0 main_call0.v4 signi,
    TRef.unary main_call0.v4 main_call0.v5 (broadcastInDim S16x64x64x256 ![] bcast_S_S16x64x64x256),
    TRef.binary main_call0.v3 main_call0.v5 main_call0.v6 (cmpi .ne),
    TRef.unary main_call0.v0 main_call0.v7 (broadcastInDim S16x64x64x256 ![] bcast_S_S16x64x64x256),
    TRef.binary (.of main_arg1) main_call0.v7 main_call0.v8 Host.remsi,
    TRef.nullary main_call0.c (constantI S_ 32 0#32),
    TRef.unary main_call0.c main_call0.v9 (broadcastInDim S16x64x64x256 ![] bcast_S_S16x64x64x256),
    TRef.binary main_call0.v8 main_call0.v9 main_call0.v10 (cmpi .ne),
    TRef.binary main_call0.v6 main_call0.v10 main_call0.v11 andi,
    TRef.nullary main_call0.c_0 (constantI S_ 32 1#32),
    TRef.unary main_call0.c_0 main_call0.v12 (broadcastInDim S16x64x64x256 ![] bcast_S_S16x64x64x256),
    TRef.binary main_call0.v2 main_call0.v12 main_call0.v13 subi,
    TRef.ternary main_call0.v11 main_call0.v13 main_call0.v2 main_call0.call0.v0 select ]
abbrev seg2 : List (HloOp τ sig (Elt F)) := [
    nullary main_c_0 (constantI S_ 32 256#32),
    TRef.unary (.of main_c_0) main_call1.v0 id,
    TRef.unary main_call1.v0 main_call1.v1 (broadcastInDim S16x64x64x256 ![] bcast_S_S16x64x64x256),
    TRef.binary (.of main_arg1) main_call1.v1 main_call1.v2 Host.divsi,
    TRef.unary (.of main_arg1) main_call1.v3 signi,
    TRef.unary main_call1.v0 main_call1.v4 signi,
    TRef.unary main_call1.v4 main_call1.v5 (broadcastInDim S16x64x64x256 ![] bcast_S_S16x64x64x256),
    TRef.binary main_call1.v3 main_call1.v5 main_call1.v6 (cmpi .ne),
    TRef.unary main_call1.v0 main_call1.v7 (broadcastInDim S16x64x64x256 ![] bcast_S_S16x64x64x256),
    TRef.binary (.of main_arg1) main_call1.v7 main_call1.v8 Host.remsi,
    TRef.nullary main_call1.c (constantI S_ 32 0#32),
    TRef.unary main_call1.c main_call1.v9 (broadcastInDim S16x64x64x256 ![] bcast_S_S16x64x64x256),
    TRef.binary main_call1.v8 main_call1.v9 main_call1.v10 (cmpi .ne),
    TRef.binary main_call1.v6 main_call1.v10 main_call1.v11 andi,
    TRef.nullary main_call1.c_0 (constantI S_ 32 1#32),
    TRef.unary main_call1.c_0 main_call1.v12 (broadcastInDim S16x64x64x256 ![] bcast_S_S16x64x64x256),
    TRef.binary main_call1.v2 main_call1.v12 main_call1.v13 subi,
    TRef.ternary main_call1.v11 main_call1.v13 main_call1.v2 main_call1.call0.v0 select ]
abbrev seg3 : List (HloOp τ sig (Elt F)) := [
    nullary main_c_1 (constantI S_ 32 128#32),
    TRef.unary (.of main_c_1) main_call2.v0 id,
    TRef.nullary main_call2.c (constantI S_ 32 0#32),
    TRef.binary main_call2.v0 main_call2.c main_call2.v1 (cmpi .eq),
    TRef.nullary main_call2.c_0 (constantI S_ 32 1#32),
    TRef.ternary main_call2.v1 main_call2.c_0 main_call2.v0 main_call2.call0.v0 select,
    TRef.unary main_call2.call0.v0 main_call2.v3 (broadcastInDim S16x64x64x256 ![] bcast_S_S16x64x64x256),
    TRef.binary (.of main_v1) main_call2.v3 main_call2.v4 Host.remsi,
    TRef.nullary main_call2.c_1 (constantI S_ 32 0#32),
    TRef.unary main_call2.c_1 main_call2.v5 (broadcastInDim S16x64x64x256 ![] bcast_S_S16x64x64x256),
    TRef.binary main_call2.v4 main_call2.v5 main_call2.v6 (cmpi .ne),
    TRef.nullary main_call2.c_2 (constantI S_ 32 0#32),
    TRef.unary main_call2.c_2 main_call2.v7 (broadcastInDim S16x64x64x256 ![] bcast_S_S16x64x64x256),
    TRef.binary main_call2.v4 main_call2.v7 main_call2.v8 (cmpi .slt),
    TRef.nullary main_call2.c_3 (constantI S_ 32 0#32),
    TRef.binary main_call2.call0.v0 main_call2.c_3 main_call2.v9 (cmpi .slt),
    TRef.unary main_call2.v9 main_call2.v10 (broadcastInDim S16x64x64x256 ![] bcast_S_S16x64x64x256),
    TRef.binary main_call2.v8 main_call2.v10 main_call2.v11 (cmpi .ne),
    TRef.binary main_call2.v11 main_call2.v6 main_call2.v12 andi,
    TRef.unary main_call2.call0.v0 main_call2.v13 (broadcastInDim S16x64x64x256 ![] bcast_S_S16x64x64x256),
    TRef.binary main_call2.v4 main_call2.v13 main_call2.v14 addi,
    TRef.ternary main_call2.v12 main_call2.v14 main_call2.v4 main_call2.v15 select ]
abbrev seg4 : List (HloOp τ sig (Elt F)) := [
    nullary main_v3 (iotaInDim S16 32 0),
    unary main_v3 main_v4 (broadcastInDim S16x1x1x1 ![0] bcast_S16_S16x1x1x1_0 : (⟨S16, .i32⟩ : BufTy).Contents (Elt F) → (⟨S16x1x1x1, .i32⟩ : BufTy).Contents (Elt F)),
    nullary main_v5 (iotaInDim S256 32 0),
    unary main_v5 main_v6 (broadcastInDim S1x1x1x256 ![3] bcast_S256_S1x1x1x256_3 : (⟨S256, .i32⟩ : BufTy).Contents (Elt F) → (⟨S1x1x1x256, .i32⟩ : BufTy).Contents (Elt F)),
    unary main_v4 main_v7 (broadcastInDim S16x64x64x256 ![0, 1, 2, 3] bcast_S16x1x1x1_S16x64x64x256_0_1_2_3 : (⟨S16x1x1x1, .i32⟩ : BufTy).Contents (Elt F) → (⟨S16x64x64x256, .i32⟩ : BufTy).Contents (Elt F)),
    unary main_v6 main_v8 (broadcastInDim S16x64x64x256 ![0, 1, 2, 3] bcast_S1x1x1x256_S16x64x64x256_0_1_2_3 : (⟨S1x1x1x256, .i32⟩ : BufTy).Contents (Elt F) → (⟨S16x64x64x256, .i32⟩ : BufTy).Contents (Elt F)),
    nullary main_cst (constant S_ .f32 0x00000000#32),
    unary main_cst main_v9 (broadcastInDim S16x128x128x256 ![] bcast_S_S16x128x128x256 : (⟨S_, .f32⟩ : BufTy).Contents (Elt F) → (⟨S16x128x128x256, .f32⟩ : BufTy).Contents (Elt F)),
    nullary main_c_2 (constantI S_ 32 0#32),
    unary main_c_2 main_v10 (broadcastInDim S16x64x64x256 ![] bcast_S_S16x64x64x256 : (⟨S_, .i32⟩ : BufTy).Contents (Elt F) → (⟨S16x64x64x256, .i32⟩ : BufTy).Contents (Elt F)),
    binary main_v7 main_v10 main_v11 (cmpi .slt : (⟨S16x64x64x256, .i32⟩ : BufTy).Contents (Elt F) → (⟨S16x64x64x256, .i32⟩ : BufTy).Contents (Elt F) → (⟨S16x64x64x256, .i1⟩ : BufTy).Contents (Elt F)),
    nullary main_c_3 (constantI S_ 32 16#32),
    unary main_c_3 main_v12 (broadcastInDim S16x64x64x256 ![] bcast_S_S16x64x64x256 : (⟨S_, .i32⟩ : BufTy).Contents (Elt F) → (⟨S16x64x64x256, .i32⟩ : BufTy).Contents (Elt F)),
    binary main_v7 main_v12 main_v13 (addi : (⟨S16x64x64x256, .i32⟩ : BufTy).Contents (Elt F) → (⟨S16x64x64x256, .i32⟩ : BufTy).Contents (Elt F) → (⟨S16x64x64x256, .i32⟩ : BufTy).Contents (Elt F)),
    ternary main_v11 main_v13 main_v7 main_v14 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    nullary main_c_4 (constantI S_ 32 0#32),
    unary main_c_4 main_v15 (broadcastInDim S16x64x64x256 ![] bcast_S_S16x64x64x256 : (⟨S_, .i32⟩ : BufTy).Contents (Elt F) → (⟨S16x64x64x256, .i32⟩ : BufTy).Contents (Elt F)),
    binary main_v0 main_v15 main_v16 (cmpi .slt : (⟨S16x64x64x256, .i32⟩ : BufTy).Contents (Elt F) → (⟨S16x64x64x256, .i32⟩ : BufTy).Contents (Elt F) → (⟨S16x64x64x256, .i1⟩ : BufTy).Contents (Elt F)),
    nullary main_c_5 (constantI S_ 32 128#32),
    unary main_c_5 main_v17 (broadcastInDim S16x64x64x256 ![] bcast_S_S16x64x64x256 : (⟨S_, .i32⟩ : BufTy).Contents (Elt F) → (⟨S16x64x64x256, .i32⟩ : BufTy).Contents (Elt F)),
    binary main_v0 main_v17 main_v18 (addi : (⟨S16x64x64x256, .i32⟩ : BufTy).Contents (Elt F) → (⟨S16x64x64x256, .i32⟩ : BufTy).Contents (Elt F) → (⟨S16x64x64x256, .i32⟩ : BufTy).Contents (Elt F)),
    ternary main_v16 main_v18 main_v0 main_v19 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    nullary main_c_6 (constantI S_ 32 0#32),
    unary main_c_6 main_v20 (broadcastInDim S16x64x64x256 ![] bcast_S_S16x64x64x256 : (⟨S_, .i32⟩ : BufTy).Contents (Elt F) → (⟨S16x64x64x256, .i32⟩ : BufTy).Contents (Elt F)),
    binary main_v2 main_v20 main_v21 (cmpi .slt : (⟨S16x64x64x256, .i32⟩ : BufTy).Contents (Elt F) → (⟨S16x64x64x256, .i32⟩ : BufTy).Contents (Elt F) → (⟨S16x64x64x256, .i1⟩ : BufTy).Contents (Elt F)),
    nullary main_c_7 (constantI S_ 32 128#32),
    unary main_c_7 main_v22 (broadcastInDim S16x64x64x256 ![] bcast_S_S16x64x64x256 : (⟨S_, .i32⟩ : BufTy).Contents (Elt F) → (⟨S16x64x64x256, .i32⟩ : BufTy).Contents (Elt F)),
    binary main_v2 main_v22 main_v23 (addi : (⟨S16x64x64x256, .i32⟩ : BufTy).Contents (Elt F) → (⟨S16x64x64x256, .i32⟩ : BufTy).Contents (Elt F) → (⟨S16x64x64x256, .i32⟩ : BufTy).Contents (Elt F)),
    ternary main_v21 main_v23 main_v2 main_v24 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    nullary main_c_8 (constantI S_ 32 0#32),
    unary main_c_8 main_v25 (broadcastInDim S16x64x64x256 ![] bcast_S_S16x64x64x256 : (⟨S_, .i32⟩ : BufTy).Contents (Elt F) → (⟨S16x64x64x256, .i32⟩ : BufTy).Contents (Elt F)),
    binary main_v8 main_v25 main_v26 (cmpi .slt : (⟨S16x64x64x256, .i32⟩ : BufTy).Contents (Elt F) → (⟨S16x64x64x256, .i32⟩ : BufTy).Contents (Elt F) → (⟨S16x64x64x256, .i1⟩ : BufTy).Contents (Elt F)),
    nullary main_c_9 (constantI S_ 32 256#32),
    unary main_c_9 main_v27 (broadcastInDim S16x64x64x256 ![] bcast_S_S16x64x64x256 : (⟨S_, .i32⟩ : BufTy).Contents (Elt F) → (⟨S16x64x64x256, .i32⟩ : BufTy).Contents (Elt F)),
    binary main_v8 main_v27 main_v28 (addi : (⟨S16x64x64x256, .i32⟩ : BufTy).Contents (Elt F) → (⟨S16x64x64x256, .i32⟩ : BufTy).Contents (Elt F) → (⟨S16x64x64x256, .i32⟩ : BufTy).Contents (Elt F)),
    ternary main_v26 main_v28 main_v8 main_v29 (select : (⟨S16x64x64x256, .i1⟩ : BufTy).Contents (Elt F) → (⟨S16x64x64x256, .i32⟩ : BufTy).Contents (Elt F) → (⟨S16x64x64x256, .i32⟩ : BufTy).Contents (Elt F) → (⟨S16x64x64x256, .i32⟩ : BufTy).Contents (Elt F)),
    unary main_v14 main_v30 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    unary main_v19 main_v31 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    unary main_v24 main_v32 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)),
    unary main_v29 main_v33 (broadcastInDim S16x64x64x256x1 ![0, 1, 2, 3] bcast_S16x64x64x256_S16x64x64x256x1_0_1_2_3 : (⟨S16x64x64x256, .i32⟩ : BufTy).Contents (Elt F) → (⟨S16x64x64x256x1, .i32⟩ : BufTy).Contents (Elt F)) ]
abbrev seg5 : List (HloOp τ sig (Elt F)) := [
    nary ![main_v30, main_v31, main_v32, main_v33] main_v34 (fun u => concatenate S16x64x64x256x4 4 [⟨S16x64x64x256x1, u 0⟩, ⟨S16x64x64x256x1, u 1⟩, ⟨S16x64x64x256x1, u 2⟩, ⟨S16x64x64x256x1, u 3⟩] concatenates_S16x64x64x256x1_S16x64x64x256x1_S16x64x64x256x1_S16x64x64x256x1_S16x64x64x256x4_d4),
    ternary main_v9 main_v34 main_arg0 main_v35 ((fun x i u => Host.scatterAdd scatter_S16x128x128x256_S16x64x64x256x4_S16x64x64x256_n_0123_0123_4 x i u) : (⟨S16x128x128x256, .f32⟩ : BufTy).Contents (Elt F) → (⟨S16x64x64x256x4, .i32⟩ : BufTy).Contents (Elt F) → (⟨S16x64x64x256, .f32⟩ : BufTy).Contents (Elt F) → (⟨S16x128x128x256, .f32⟩ : BufTy).Contents (Elt F)) ]

theorem ops_eq : (ops : List (HloOp τ sig (Elt F))) = seg1 ++ (seg2 ++ (seg3 ++ (seg4 ++ seg5))) := rfl

/-- Two stretches run one after the other: the second from what the first leaves. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

theorem seg1_v0 (W : Valuation τ sig (Elt F)) :
    after seg1 W (main_v0 : DevRef τ sig) = floorDiv (W (main_arg1 : DevRef τ sig)) (constantI S_ 32 32768#32) := by
  after_results_simp
  rfl

theorem seg1_arg0 (W : Valuation τ sig (Elt F)) :
    after seg1 W (main_arg0 : DevRef τ sig) = W (main_arg0 : DevRef τ sig) := by
  after_results_simp

theorem seg1_arg1 (W : Valuation τ sig (Elt F)) :
    after seg1 W (main_arg1 : DevRef τ sig) = W (main_arg1 : DevRef τ sig) := by
  after_results_simp

theorem seg1_arg2 (W : Valuation τ sig (Elt F)) :
    after seg1 W (main_arg2 : DevRef τ sig) = W (main_arg2 : DevRef τ sig) := by
  after_results_simp

theorem seg2_v1 (W : Valuation τ sig (Elt F)) :
    after seg2 W (main_v1 : DevRef τ sig) = floorDiv (W (main_arg1 : DevRef τ sig)) (constantI S_ 32 256#32) := by
  after_results_simp
  rfl

theorem seg2_v0 (W : Valuation τ sig (Elt F)) :
    after seg2 W (main_v0 : DevRef τ sig) = W (main_v0 : DevRef τ sig) := by
  after_results_simp

theorem seg2_arg0 (W : Valuation τ sig (Elt F)) :
    after seg2 W (main_arg0 : DevRef τ sig) = W (main_arg0 : DevRef τ sig) := by
  after_results_simp

theorem seg2_arg1 (W : Valuation τ sig (Elt F)) :
    after seg2 W (main_arg1 : DevRef τ sig) = W (main_arg1 : DevRef τ sig) := by
  after_results_simp

theorem seg2_arg2 (W : Valuation τ sig (Elt F)) :
    after seg2 W (main_arg2 : DevRef τ sig) = W (main_arg2 : DevRef τ sig) := by
  after_results_simp

theorem seg3_v2 (W : Valuation τ sig (Elt F)) :
    after seg3 W (main_v2 : DevRef τ sig) = floorRem (W (main_v1 : DevRef τ sig)) (constantI S_ 32 128#32) := by
  after_results_simp
  rfl

theorem seg3_v0 (W : Valuation τ sig (Elt F)) :
    after seg3 W (main_v0 : DevRef τ sig) = W (main_v0 : DevRef τ sig) := by
  after_results_simp

theorem seg3_arg0 (W : Valuation τ sig (Elt F)) :
    after seg3 W (main_arg0 : DevRef τ sig) = W (main_arg0 : DevRef τ sig) := by
  after_results_simp

theorem seg3_arg1 (W : Valuation τ sig (Elt F)) :
    after seg3 W (main_arg1 : DevRef τ sig) = W (main_arg1 : DevRef τ sig) := by
  after_results_simp

theorem seg3_arg2 (W : Valuation τ sig (Elt F)) :
    after seg3 W (main_arg2 : DevRef τ sig) = W (main_arg2 : DevRef τ sig) := by
  after_results_simp

theorem seg4_v30 (W : Valuation τ sig (Elt F)) :
    after seg4 W (main_v30 : DevRef τ sig) = col idxB := by
  after_results_simp
  rfl
theorem seg4_v31 (W : Valuation τ sig (Elt F)) :
    after seg4 W (main_v31 : DevRef τ sig) = col (wrapNeg (W (main_v0 : DevRef τ sig)) 128#32) := by
  after_results_simp
  rfl
theorem seg4_v32 (W : Valuation τ sig (Elt F)) :
    after seg4 W (main_v32 : DevRef τ sig) = col (wrapNeg (W (main_v2 : DevRef τ sig)) 128#32) := by
  after_results_simp
  rfl
theorem seg4_v33 (W : Valuation τ sig (Elt F)) :
    after seg4 W (main_v33 : DevRef τ sig) = col idxF := by
  after_results_simp
  rfl
theorem seg4_v9 (W : Valuation τ sig (Elt F)) :
    after seg4 W (main_v9 : DevRef τ sig)
      = broadcastInDim S16x128x128x256 ![] bcast_S_S16x128x128x256 (constant (F := F) S_ .f32 0x00000000#32) := by
  after_results_simp

theorem seg4_arg0 (W : Valuation τ sig (Elt F)) :
    after seg4 W (main_arg0 : DevRef τ sig) = W (main_arg0 : DevRef τ sig) := by
  after_results_simp

theorem seg4_arg1 (W : Valuation τ sig (Elt F)) :
    after seg4 W (main_arg1 : DevRef τ sig) = W (main_arg1 : DevRef τ sig) := by
  after_results_simp

theorem seg4_arg2 (W : Valuation τ sig (Elt F)) :
    after seg4 W (main_arg2 : DevRef τ sig) = W (main_arg2 : DevRef τ sig) := by
  after_results_simp

attribute [local irreducible] Host.scatterAdd concatenate in
/-- The last two operations: the index table out of the four columns, and the scatter-add of the updates. -/
theorem seg5_v35 (W : Valuation τ sig (Elt F)) :
    after seg5 W (main_v35 : DevRef τ sig)
      = Host.scatterAdd scatter_S16x128x128x256_S16x64x64x256x4_S16x64x64x256_n_0123_0123_4
          (W (main_v9 : DevRef τ sig))
          (concatenate S16x64x64x256x4 4
            [⟨S16x64x64x256x1, W (main_v30 : DevRef τ sig)⟩, ⟨S16x64x64x256x1, W (main_v31 : DevRef τ sig)⟩,
             ⟨S16x64x64x256x1, W (main_v32 : DevRef τ sig)⟩, ⟨S16x64x64x256x1, W (main_v33 : DevRef τ sig)⟩]
            concatenates_S16x64x64x256x1_S16x64x64x256x1_S16x64x64x256x1_S16x64x64x256x1_S16x64x64x256x4_d4)
          (W (main_arg0 : DevRef τ sig)) := by
  simp only [after_cons, after_nil]
  rw [ternary_result, nary_result_ne (r := main_v9) _ _ _ _ _ _ (by decide), nary_result_ne (r := main_arg0) _ _ _ _ _ _ (by decide),
    nary_result]
  rfl

theorem seg5_arg0 (W : Valuation τ sig (Elt F)) :
    after seg5 W (main_arg0 : DevRef τ sig) = W (main_arg0 : DevRef τ sig) := by
  simp only [after_cons, after_nil]
  rw [ternary_result_ne _ _ _ _ _ _ _ _ _ _ (by decide), nary_result_ne _ _ _ _ _ _ (by decide)]
theorem seg5_arg1 (W : Valuation τ sig (Elt F)) :
    after seg5 W (main_arg1 : DevRef τ sig) = W (main_arg1 : DevRef τ sig) := by
  simp only [after_cons, after_nil]
  rw [ternary_result_ne _ _ _ _ _ _ _ _ _ _ (by decide), nary_result_ne _ _ _ _ _ _ (by decide)]
theorem seg5_arg2 (W : Valuation τ sig (Elt F)) :
    after seg5 W (main_arg2 : DevRef τ sig) = W (main_arg2 : DevRef τ sig) := by
  simp only [after_cons, after_nil]
  rw [ternary_result_ne _ _ _ _ _ _ _ _ _ _ (by decide), nary_result_ne _ _ _ _ _ _ (by decide)]

/-! ## The whole line -/

theorem out_eq (V : Valuation τ sig (Elt F)) :
    after ops V (main_v35 : DevRef τ sig) = refOut (V (main_arg0 : DevRef τ sig)) (V (main_arg1 : DevRef τ sig)) := by
  rw [ops_eq, after_app, after_app, after_app, after_app, seg5_v35, seg4_v9, seg4_v30, seg4_v31, seg4_v32, seg4_v33, seg4_arg0,
    seg3_v2, seg3_v0, seg3_arg0, seg2_v1, seg2_v0, seg2_arg0, seg1_v0, seg1_arg0, seg1_arg1]
  rfl

theorem arg0_eq (V : Valuation τ sig (Elt F)) : after ops V (main_arg0 : DevRef τ sig) = V (main_arg0 : DevRef τ sig) := by
  rw [ops_eq, after_app, after_app, after_app, after_app, seg5_arg0, seg4_arg0, seg3_arg0, seg2_arg0, seg1_arg0]
theorem arg1_eq (V : Valuation τ sig (Elt F)) : after ops V (main_arg1 : DevRef τ sig) = V (main_arg1 : DevRef τ sig) := by
  rw [ops_eq, after_app, after_app, after_app, after_app, seg5_arg1, seg4_arg1, seg3_arg1, seg2_arg1, seg1_arg1]
theorem arg2_eq (V : Valuation τ sig (Elt F)) : after ops V (main_arg2 : DevRef τ sig) = V (main_arg2 : DevRef τ sig) := by
  rw [ops_eq, after_app, after_app, after_app, after_app, seg5_arg2, seg4_arg2, seg3_arg2, seg2_arg2, seg1_arg2]

/-- On every device, for any float values, from any memory with zero counters: every weakly fair execution of the
    reference's @main terminates with the result buffer at `refOut` of the two argument arrays' launch contents,
    and the three arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v35)
          = refOut (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v35).trans (out_eq _), (h c main_arg0).trans (arg0_eq _),
      (h c main_arg1).trans (arg1_eq _), (h c main_arg2).trans (arg2_eq _)⟩)
    (run_seq scopedRefs_eq scopedSems_eq defs main (fun _ => ops) main_eq (fun _ => ops_sub) m ρ)

end Cert.ReferenceIdeal.RefValue

end
-- ==== Proof.RefScatter.lean ====
/-
  Where the reference's four-axis scatter sends an update, and the index array it reads.
  Every operand axis is named by the scatter indices and none is covered by an update window: update J reads FOUR
  start words, component a at scatter-indices position (J, a), signed and unclamped, and its window coordinates are
  all zero. So an update whose four start words read as a position inside the operand lands exactly there.
  The index array is the concatenation along a new last axis of four arrays of the updates' shape, so its word at
  (J, a) is the a-th array's word at J.
-/
import proofs.«175987_j63015760166976_2_alg».proof.ReferenceIdeal
import Idealize.ShloMosaic.Lib.ValueIdx
import Idealize.ShloMosaic.Lib.Pipeline.Value

noncomputable section

namespace Cert.ReferenceIdeal.RefValue

open Idealize.ShloMosaic Idealize.ShloMosaic.ValueIdx
open Cert.ReferenceIdeal

variable [Facts₀]
open Facts₀

/-- The four-axis scatter's dimension numbers. -/
abbrev dR : ScatterDims S16x128x128x256 S16x64x64x256x4 S16x64x64x256 :=
  scatter_S16x128x128x256_S16x64x64x256x4_S16x64x64x256_n_0123_0123_4

/-- Update J reads component c of its start index at scatter-indices position (J, c). -/
theorem siIdx_ref (J : S16x64x64x256.Idx) (c : Fin dR.scatterDimsToOperandDims.length) :
    dR.siIdx J c = ix5 (J 0 : Fin 16) (J 1 : Fin 64) (J 2 : Fin 64) (J 3 : Fin 256) (⟨c.val, c.isLt⟩ : Fin 4) := by
  funext b
  match b with
  | ⟨0, _⟩ => rfl
  | ⟨1, _⟩ => rfl
  | ⟨2, _⟩ => rfl
  | ⟨3, _⟩ => rfl
  | ⟨4, _⟩ => rfl

/-- The axes of the operand, by number. -/
theorem axis_cases (a : Fin S16x128x128x256.rank) : a = ⟨0, by decide⟩ ∨ a = ⟨1, by decide⟩ ∨ a = ⟨2, by decide⟩ ∨ a = ⟨3, by decide⟩ := by
  match a with
  | ⟨0, _⟩ => exact .inl rfl
  | ⟨1, _⟩ => exact .inr (.inl rfl)
  | ⟨2, _⟩ => exact .inr (.inr (.inl rfl))
  | ⟨3, _⟩ => exact .inr (.inr (.inr rfl))

/-- The start of update J on operand axis a is the word at (J, a), read signed. -/
theorem start_ref (J : S16x64x64x256.Idx) (idx : IVec S16x64x64x256x4 32) (a : Fin S16x128x128x256.rank) :
    dR.start J idx a
      = (idx (ix5 (J 0 : Fin 16) (J 1 : Fin 64) (J 2 : Fin 64) (J 3 : Fin 256) (⟨a.val, a.isLt⟩ : Fin 4))).toInt := by
  have ha : a ∈ dR.scatterDimsToOperandDims := by
    rcases axis_cases a with h | h | h | h <;> subst h <;>
      simp [scatter_S16x128x128x256_S16x64x64x256x4_S16x64x64x256_n_0123_0123_4]
  unfold ScatterDims.start
  rw [dif_pos ha, siIdx_ref]
  rcases axis_cases a with h | h | h | h <;> subst h <;> rfl

/-- No update window: every window coordinate is zero. -/
theorem window_ref (J : S16x64x64x256.Idx) (a : Fin S16x128x128x256.rank) : dR.window J a = 0 := by
  rcases axis_cases a with h | h | h | h <;> subst h <;>
    simp [ScatterDims.window, ScatterDims.sKept, Shape.kept,
      scatter_S16x128x128x256_S16x64x64x256x4_S16x64x64x256_n_0123_0123_4]

/-- An update whose four start words read (signed) as a position inside the operand lands at that position. -/
theorem resultIdx_ref (J : S16x64x64x256.Idx) (idx : IVec S16x64x64x256x4 32)
    (p0 : Fin 16) (p1 p2 : Fin 128) (p3 : Fin 256)
    (h0 : (idx (ix5 (J 0 : Fin 16) (J 1 : Fin 64) (J 2 : Fin 64) (J 3 : Fin 256) (0 : Fin 4))).toInt = (p0.val : Int))
    (h1 : (idx (ix5 (J 0 : Fin 16) (J 1 : Fin 64) (J 2 : Fin 64) (J 3 : Fin 256) (1 : Fin 4))).toInt = (p1.val : Int))
    (h2 : (idx (ix5 (J 0 : Fin 16) (J 1 : Fin 64) (J 2 : Fin 64) (J 3 : Fin 256) (2 : Fin 4))).toInt = (p2.val : Int))
    (h3 : (idx (ix5 (J 0 : Fin 16) (J 1 : Fin 64) (J 2 : Fin 64) (J 3 : Fin 256) (3 : Fin 4))).toInt = (p3.val : Int)) :
    dR.resultIdx? J idx = some (ix4 p0 p1 p2 p3) := by
  have hs0 : dR.start J idx ⟨0, by decide⟩ + (dR.window J ⟨0, by decide⟩ : Int) = (p0.val : Int) := by
    rw [start_ref, window_ref]; simp only [Int.natCast_zero, Int.add_zero]; exact h0
  have hs1 : dR.start J idx ⟨1, by decide⟩ + (dR.window J ⟨1, by decide⟩ : Int) = (p1.val : Int) := by
    rw [start_ref, window_ref]; simp only [Int.natCast_zero, Int.add_zero]; exact h1
  have hs2 : dR.start J idx ⟨2, by decide⟩ + (dR.window J ⟨2, by decide⟩ : Int) = (p2.val : Int) := by
    rw [start_ref, window_ref]; simp only [Int.natCast_zero, Int.add_zero]; exact h2
  have hs3 : dR.start J idx ⟨3, by decide⟩ + (dR.window J ⟨3, by decide⟩ : Int) = (p3.val : Int) := by
    rw [start_ref, window_ref]; simp only [Int.natCast_zero, Int.add_zero]; exact h3
  have hz0 : S16x128x128x256.size ⟨0, by decide⟩ = 16 := rfl
  have hz1 : S16x128x128x256.size ⟨1, by decide⟩ = 128 := rfl
  have hz2 : S16x128x128x256.size ⟨2, by decide⟩ = 128 := rfl
  have hz3 : S16x128x128x256.size ⟨3, by decide⟩ = 256 := rfl
  have hin : ∀ a, 0 ≤ dR.start J idx a + dR.window J a ∧ dR.start J idx a + dR.window J a < S16x128x128x256.size a := by
    intro a
    rcases axis_cases a with h | h | h | h <;> subst h
    · rw [hs0, hz0]; have := p0.isLt; omega
    · rw [hs1, hz1]; have := p1.isLt; omega
    · rw [hs2, hz2]; have := p2.isLt; omega
    · rw [hs3, hz3]; have := p3.isLt; omega
  unfold ScatterDims.resultIdx?
  rw [dif_pos hin]
  refine congrArg some (funext fun a => Fin.ext ?_)
  rcases axis_cases a with h | h | h | h <;> subst h
  · show (dR.start J idx ⟨0, _⟩ + dR.window J ⟨0, _⟩).toNat = p0.val
    rw [hs0]; simp
  · show (dR.start J idx ⟨1, _⟩ + dR.window J ⟨1, _⟩).toNat = p1.val
    rw [hs1]; simp
  · show (dR.start J idx ⟨2, _⟩ + dR.window J ⟨2, _⟩).toNat = p2.val
    rw [hs2]; simp
  · show (dR.start J idx ⟨3, _⟩ + dR.window J ⟨3, _⟩).toNat = p3.val
    rw [hs3]; simp

/-- An array of the updates' shape, given a last axis of extent one, read at (J, e), is the array at J. -/
theorem bcast_last_apply {α : Type} (u : S16x64x64x256.Idx → α) (J : S16x64x64x256.Idx) (e : Fin 1) :
    broadcastInDim S16x64x64x256x1 ![0, 1, 2, 3] bcast_S16x64x64x256_S16x64x64x256x1_0_1_2_3 u
      (ix5 (J 0 : Fin 16) (J 1 : Fin 64) (J 2 : Fin 64) (J 3 : Fin 256) e) = u J := by
  unfold broadcastInDim
  refine congrArg u (funext fun a => ?_)
  match a with
  | ⟨0, _⟩ => rfl
  | ⟨1, _⟩ => rfl
  | ⟨2, _⟩ => rfl
  | ⟨3, _⟩ => rfl

/-- The index array at (J, 0) is the first component array at J. -/
theorem idxArray_apply_0 {α : Type} (u0 u1 u2 u3 : S16x64x64x256.Idx → α) (J : S16x64x64x256.Idx) :
    concatenate S16x64x64x256x4 4
      [⟨S16x64x64x256x1, broadcastInDim S16x64x64x256x1 ![0, 1, 2, 3] bcast_S16x64x64x256_S16x64x64x256x1_0_1_2_3 u0⟩,
       ⟨S16x64x64x256x1, broadcastInDim S16x64x64x256x1 ![0, 1, 2, 3] bcast_S16x64x64x256_S16x64x64x256x1_0_1_2_3 u1⟩,
       ⟨S16x64x64x256x1, broadcastInDim S16x64x64x256x1 ![0, 1, 2, 3] bcast_S16x64x64x256_S16x64x64x256x1_0_1_2_3 u2⟩,
       ⟨S16x64x64x256x1, broadcastInDim S16x64x64x256x1 ![0, 1, 2, 3] bcast_S16x64x64x256_S16x64x64x256x1_0_1_2_3 u3⟩]
      concatenates_S16x64x64x256x1_S16x64x64x256x1_S16x64x64x256x1_S16x64x64x256x1_S16x64x64x256x4_d4
      (ix5 (J 0 : Fin 16) (J 1 : Fin 64) (J 2 : Fin 64) (J 3 : Fin 256) (0 : Fin 4)) = u0 J := by
  refine (concatenate_apply_piece (4 : Fin S16x64x64x256x4.rank) _ _ _ 0 (by simp) S16x64x64x256x1
    (broadcastInDim S16x64x64x256x1 ![0, 1, 2, 3] bcast_S16x64x64x256_S16x64x64x256x1_0_1_2_3 u0) rfl rfl 0 rfl
    (ix5 (J 0 : Fin 16) (J 1 : Fin 64) (J 2 : Fin 64) (J 3 : Fin 256) (0 : Fin 1)) ?_ rfl).trans
    (bcast_last_apply u0 J 0)
  intro b hb
  match b with
  | ⟨0, _⟩ => rfl
  | ⟨1, _⟩ => rfl
  | ⟨2, _⟩ => rfl
  | ⟨3, _⟩ => rfl
  | ⟨4, _⟩ => exact absurd rfl hb

/-- The index array at (J, 1) is the second component array at J. -/
theorem idxArray_apply_1 {α : Type} (u0 u1 u2 u3 : S16x64x64x256.Idx → α) (J : S16x64x64x256.Idx) :
    concatenate S16x64x64x256x4 4
      [⟨S16x64x64x256x1, broadcastInDim S16x64x64x256x1 ![0, 1, 2, 3] bcast_S16x64x64x256_S16x64x64x256x1_0_1_2_3 u0⟩,
       ⟨S16x64x64x256x1, broadcastInDim S16x64x64x256x1 ![0, 1, 2, 3] bcast_S16x64x64x256_S16x64x64x256x1_0_1_2_3 u1⟩,
       ⟨S16x64x64x256x1, broadcastInDim S16x64x64x256x1 ![0, 1, 2, 3] bcast_S16x64x64x256_S16x64x64x256x1_0_1_2_3 u2⟩,
       ⟨S16x64x64x256x1, broadcastInDim S16x64x64x256x1 ![0, 1, 2, 3] bcast_S16x64x64x256_S16x64x64x256x1_0_1_2_3 u3⟩]
      concatenates_S16x64x64x256x1_S16x64x64x256x1_S16x64x64x256x1_S16x64x64x256x1_S16x64x64x256x4_d4
      (ix5 (J 0 : Fin 16) (J 1 : Fin 64) (J 2 : Fin 64) (J 3 : Fin 256) (1 : Fin 4)) = u1 J := by
  refine (concatenate_apply_piece (4 : Fin S16x64x64x256x4.rank) _ _ _ 1 (by simp) S16x64x64x256x1
    (broadcastInDim S16x64x64x256x1 ![0, 1, 2, 3] bcast_S16x64x64x256_S16x64x64x256x1_0_1_2_3 u1) rfl rfl 1 rfl
    (ix5 (J 0 : Fin 16) (J 1 : Fin 64) (J 2 : Fin 64) (J 3 : Fin 256) (0 : Fin 1)) ?_ rfl).trans
    (bcast_last_apply u1 J 0)
  intro b hb
  match b with
  | ⟨0, _⟩ => rfl
  | ⟨1, _⟩ => rfl
  | ⟨2, _⟩ => rfl
  | ⟨3, _⟩ => rfl
  | ⟨4, _⟩ => exact absurd rfl hb

/-- The index array at (J, 2) is the third component array at J. -/
theorem idxArray_apply_2 {α : Type} (u0 u1 u2 u3 : S16x64x64x256.Idx → α) (J : S16x64x64x256.Idx) :
    concatenate S16x64x64x256x4 4
      [⟨S16x64x64x256x1, broadcastInDim S16x64x64x256x1 ![0, 1, 2, 3] bcast_S16x64x64x256_S16x64x64x256x1_0_1_2_3 u0⟩,
       ⟨S16x64x64x256x1, broadcastInDim S16x64x64x256x1 ![0, 1, 2, 3] bcast_S16x64x64x256_S16x64x64x256x1_0_1_2_3 u1⟩,
       ⟨S16x64x64x256x1, broadcastInDim S16x64x64x256x1 ![0, 1, 2, 3] bcast_S16x64x64x256_S16x64x64x256x1_0_1_2_3 u2⟩,
       ⟨S16x64x64x256x1, broadcastInDim S16x64x64x256x1 ![0, 1, 2, 3] bcast_S16x64x64x256_S16x64x64x256x1_0_1_2_3 u3⟩]
      concatenates_S16x64x64x256x1_S16x64x64x256x1_S16x64x64x256x1_S16x64x64x256x1_S16x64x64x256x4_d4
      (ix5 (J 0 : Fin 16) (J 1 : Fin 64) (J 2 : Fin 64) (J 3 : Fin 256) (2 : Fin 4)) = u2 J := by
  refine (concatenate_apply_piece (4 : Fin S16x64x64x256x4.rank) _ _ _ 2 (by simp) S16x64x64x256x1
    (broadcastInDim S16x64x64x256x1 ![0, 1, 2, 3] bcast_S16x64x64x256_S16x64x64x256x1_0_1_2_3 u2) rfl rfl 2 rfl
    (ix5 (J 0 : Fin 16) (J 1 : Fin 64) (J 2 : Fin 64) (J 3 : Fin 256) (0 : Fin 1)) ?_ rfl).trans
    (bcast_last_apply u2 J 0)
  intro b hb
  match b with
  | ⟨0, _⟩ => rfl
  | ⟨1, _⟩ => rfl
  | ⟨2, _⟩ => rfl
  | ⟨3, _⟩ => rfl
  | ⟨4, _⟩ => exact absurd rfl hb

/-- The index array at (J, 3) is the fourth component array at J. -/
theorem idxArray_apply_3 {α : Type} (u0 u1 u2 u3 : S16x64x64x256.Idx → α) (J : S16x64x64x256.Idx) :
    concatenate S16x64x64x256x4 4
      [⟨S16x64x64x256x1, broadcastInDim S16x64x64x256x1 ![0, 1, 2, 3] bcast_S16x64x64x256_S16x64x64x256x1_0_1_2_3 u0⟩,
       ⟨S16x64x64x256x1, broadcastInDim S16x64x64x256x1 ![0, 1, 2, 3] bcast_S16x64x64x256_S16x64x64x256x1_0_1_2_3 u1⟩,
       ⟨S16x64x64x256x1, broadcastInDim S16x64x64x256x1 ![0, 1, 2, 3] bcast_S16x64x64x256_S16x64x64x256x1_0_1_2_3 u2⟩,
       ⟨S16x64x64x256x1, broadcastInDim S16x64x64x256x1 ![0, 1, 2, 3] bcast_S16x64x64x256_S16x64x64x256x1_0_1_2_3 u3⟩]
      concatenates_S16x64x64x256x1_S16x64x64x256x1_S16x64x64x256x1_S16x64x64x256x1_S16x64x64x256x4_d4
      (ix5 (J 0 : Fin 16) (J 1 : Fin 64) (J 2 : Fin 64) (J 3 : Fin 256) (3 : Fin 4)) = u3 J := by
  refine (concatenate_apply_piece (4 : Fin S16x64x64x256x4.rank) _ _ _ 3 (by simp) S16x64x64x256x1
    (broadcastInDim S16x64x64x256x1 ![0, 1, 2, 3] bcast_S16x64x64x256_S16x64x64x256x1_0_1_2_3 u3) rfl rfl 3 rfl
    (ix5 (J 0 : Fin 16) (J 1 : Fin 64) (J 2 : Fin 64) (J 3 : Fin 256) (0 : Fin 1)) ?_ rfl).trans
    (bcast_last_apply u3 J 0)
  intro b hb
  match b with
  | ⟨0, _⟩ => rfl
  | ⟨1, _⟩ => rfl
  | ⟨2, _⟩ => rfl
  | ⟨3, _⟩ => rfl
  | ⟨4, _⟩ => exact absurd rfl hb

end Cert.ReferenceIdeal.RefValue

end
-- ==== Proof.IntRef.lean ====
/-
  The reference's integer decode on one 32-bit word: jnp.floor_divide as a truncating signed division corrected
  by one where the signs of dividend and divisor differ and the remainder is not zero, jnp.remainder as a signed
  remainder corrected by the divisor where its sign differs from the divisor's, and the wrap of negative indices.
  On a non-negative word and a positive divisor they are the natural-number quotient and remainder, and the wrap
  is the identity.
-/
import proofs.«175987_j63015760166976_2_alg».proof.Proof.IntDecode
import Idealize.ShloMosaic.Lib.Affine

namespace Cert.Unpool.Int

open Idealize.ShloMosaic

/-- The sign of a word as a word: 0, -1 or 1. -/
def sgn (x : BitVec 32) : BitVec 32 := if x = 0 then 0 else if x.msb then -1 else 1

/-- The floor of k / d as the reference computes it. -/
def rfloor (d k : BitVec 32) : BitVec 32 :=
  Scalar.select
    (IntOp.andi (IntOp.cmpi .ne (sgn k) (sgn d)) (IntOp.cmpi .ne (IntOp.remsi .host k d) 0#32))
    (IntOp.subi (IntOp.divsi .host k d) 1#32)
    (IntOp.divsi .host k d)

/-- The divisor the remainder uses: 1 in place of 0. -/
def safe (d : BitVec 32) : BitVec 32 := Scalar.select (IntOp.cmpi .eq d 0#32) 1#32 d

/-- The remainder of q by d with the divisor's sign, as the reference computes it. -/
def rrem (d q : BitVec 32) : BitVec 32 :=
  Scalar.select
    (IntOp.andi
      (IntOp.cmpi .ne (IntOp.cmpi .slt (IntOp.remsi .host q (safe d)) 0#32) (IntOp.cmpi .slt (safe d) 0#32))
      (IntOp.cmpi .ne (IntOp.remsi .host q (safe d)) 0#32))
    (IntOp.addi (IntOp.remsi .host q (safe d)) (safe d))
    (IntOp.remsi .host q (safe d))

/-- The wrap of a negative index by the extent n. -/
def wrap (n v : BitVec 32) : BitVec 32 := Scalar.select (IntOp.cmpi .slt v 0#32) (IntOp.addi v n) v

/-- A word of non-negative signed value does not test negative. -/
theorem cmpi_slt_zero_of_nonneg (v : BitVec 32) (h : 0 ≤ v.toInt) : IntOp.cmpi .slt v 0#32 = 0#1 := by
  have : ¬ v.toInt < 0 := by omega
  simp only [IntOp.cmpi, BitVec.slt_eq_decide, BitVec.toInt_zero, this, decide_false, BitVec.ofBool_false]; rfl

/-- The wrap is the identity on a non-negative word. -/
theorem wrap_eq (n v : BitVec 32) (h : 0 ≤ v.toInt) : wrap n v = v := by
  unfold wrap Scalar.select
  rw [cmpi_slt_zero_of_nonneg v h, if_neg (by decide)]

/-- A word of positive signed value is not zero. -/
theorem ne_zero_of_pos (d : BitVec 32) (hd : 0 < d.toInt) : d ≠ 0#32 := by
  intro h; subst h; revert hd; decide

/-- The sign of a positive word is 1. -/
theorem sgn_of_pos (d : BitVec 32) (hd : 0 < d.toInt) : sgn d = 1 := by
  unfold sgn
  rw [if_neg (show ¬ d = 0 from ne_zero_of_pos d hd), msb_false_of_nonneg d (by omega)]
  rfl

/-- Truncating signed division of a non-negative word by a positive one. -/
theorem divsi_host (d k : BitVec 32) (h0 : 0 ≤ k.toInt) (hd : 0 < d.toInt) :
    IntOp.divsi .host k d = BitVec.ofNat 32 (k.toNat / d.toNat) := by
  unfold IntOp.divsi
  rw [if_neg (IntOp.not_corner_of_pos hd), BitVec.sdiv_eq, msb_false_of_nonneg k h0,
    msb_false_of_nonneg d (by omega)]
  apply BitVec.eq_of_toNat_eq
  simp only [BitVec.udiv_eq, BitVec.toNat_udiv, BitVec.toNat_ofNat]
  exact (Nat.mod_eq_of_lt (Nat.lt_of_le_of_lt (Nat.div_le_self _ _) k.isLt)).symm

/-- Signed remainder of a non-negative word by a positive one. -/
theorem remsi_host (d k : BitVec 32) (h0 : 0 ≤ k.toInt) (hd : 0 < d.toInt) :
    IntOp.remsi .host k d = BitVec.ofNat 32 (k.toNat % d.toNat) := by
  unfold IntOp.remsi
  rw [if_neg (IntOp.not_corner_of_pos hd), BitVec.srem_eq, msb_false_of_nonneg k h0,
    msb_false_of_nonneg d (by omega)]
  apply BitVec.eq_of_toNat_eq
  simp only [BitVec.umod_eq, BitVec.toNat_umod, BitVec.toNat_ofNat]
  exact (Nat.mod_eq_of_lt (Nat.lt_of_le_of_lt (Nat.mod_le _ _) k.isLt)).symm

/-- The reference's floor division of a non-negative word by a positive one is the natural-number quotient. -/
theorem rfloor_eq (d k : BitVec 32) (h0 : 0 ≤ k.toInt) (hd : 0 < d.toInt) :
    rfloor d k = BitVec.ofNat 32 (k.toNat / d.toNat) := by
  have hc : IntOp.andi (IntOp.cmpi .ne (sgn k) (sgn d)) (IntOp.cmpi .ne (IntOp.remsi .host k d) 0#32) ≠ 1 := by
    by_cases hk : k = 0#32
    · subst hk
      have hr : IntOp.remsi .host 0#32 d = 0#32 := by
        rw [remsi_host d 0#32 (by decide) hd]; simp
      rw [hr]
      simp [IntOp.andi, IntOp.cmpi]
    · have hn := toInt_eq_toNat_of_nonneg k h0
      have hpos : 0 < k.toInt := by
        have : k.toNat ≠ 0 := fun h => hk (BitVec.eq_of_toNat_eq (by simpa using h))
        omega
      rw [sgn_of_pos k hpos, sgn_of_pos d hd]
      simp [IntOp.andi, IntOp.cmpi]
  unfold rfloor Scalar.select
  rw [if_neg hc, divsi_host d k h0 hd]

/-- A positive divisor is kept by the remainder. -/
theorem safe_of_pos (d : BitVec 32) (hd : 0 < d.toInt) : safe d = d := by
  unfold safe Scalar.select
  rw [if_neg (show ¬ IntOp.cmpi .eq d 0#32 = 1 from fun h => ne_zero_of_pos d hd (IntOp.cmpi_eq.1 h))]

/-- The reference's remainder of a non-negative word by a positive one is the natural-number remainder. -/
theorem rrem_eq (d q : BitVec 32) (h0 : 0 ≤ q.toInt) (hd : 0 < d.toInt) :
    rrem d q = BitVec.ofNat 32 (q.toNat % d.toNat) := by
  have hdn := toInt_eq_toNat_of_nonneg d (by omega)
  have hdm : 2 * d.toNat < 2 ^ 32 := BitVec.msb_eq_false_iff_two_mul_lt.1 (msb_false_of_nonneg d (by omega))
  have hdpos : 0 < d.toNat := by omega
  have hr := remsi_host d q h0 hd
  have hrlt : q.toNat % d.toNat < d.toNat := Nat.mod_lt _ hdpos
  have hrnn : 0 ≤ (BitVec.ofNat 32 (q.toNat % d.toNat)).toInt := by
    have hn : (BitVec.ofNat 32 (q.toNat % d.toNat)).toNat = q.toNat % d.toNat := by
      rw [BitVec.toNat_ofNat]; exact Nat.mod_eq_of_lt (by omega)
    rw [BitVec.toInt_eq_toNat_of_lt (by rw [hn]; omega)]; omega
  unfold rrem Scalar.select
  rw [safe_of_pos d hd, hr, cmpi_slt_zero_of_nonneg _ hrnn, cmpi_slt_zero_of_nonneg d (by omega)]
  rw [if_neg (by simp [IntOp.andi, IntOp.cmpi])]

/-- Floor division by 128 · 256: the output row of a pooling index. -/
theorem rfloor_32768 (k : BitVec 32) (h0 : 0 ≤ k.toInt) : rfloor 32768#32 k = BitVec.ofNat 32 (k.toNat / 32768) :=
  rfloor_eq 32768#32 k h0 (by decide)

/-- Floor division by 256: a pooling index without its channel. -/
theorem rfloor_256 (k : BitVec 32) (h0 : 0 ≤ k.toInt) : rfloor 256#32 k = BitVec.ofNat 32 (k.toNat / 256) :=
  rfloor_eq 256#32 k h0 (by decide)

/-- Remainder by 128: the output column. -/
theorem rrem_128 (q : BitVec 32) (h0 : 0 ≤ q.toInt) : rrem 128#32 q = BitVec.ofNat 32 (q.toNat % 128) :=
  rrem_eq 128#32 q h0 (by decide)

/-- A number below 2^31 as a word is non-negative, and reads back as itself. -/
theorem toInt_ofNat_of_lt (n : Nat) (h : n < 2147483648) : (BitVec.ofNat 32 n).toInt = (n : Int) := by
  have hn : (BitVec.ofNat 32 n).toNat = n := by
    simp only [BitVec.toNat_ofNat, Nat.reducePow]; omega
  rw [BitVec.toInt_eq_toNat_of_lt (by rw [hn]; omega), hn]

/-- The quotient of a word in the plane by 256, as a word, is non-negative: the column's dividend. -/
theorem toNat_ofNat_of_lt (n : Nat) (h : n < 4294967296) : (BitVec.ofNat 32 n).toNat = n := by
  simp only [BitVec.toNat_ofNat, Nat.reducePow]; omega

/-- The unsigned value of a non-negative word is below 2^31. -/
theorem toNat_lt_of_nonneg (k : BitVec 32) (h0 : 0 ≤ k.toInt) : k.toNat < 2147483648 := by
  have := BitVec.msb_eq_false_iff_two_mul_lt.1 (msb_false_of_nonneg k h0)
  omega

/-- The reference's output row of a pooling index k ≥ 0: the wrapped floor of k / (128 · 256). -/
theorem ref_row (n k : BitVec 32) (h0 : 0 ≤ k.toInt) :
    wrap n (rfloor 32768#32 k) = BitVec.ofNat 32 (k.toNat / 32768) := by
  have hk := toNat_lt_of_nonneg k h0
  rw [rfloor_32768 k h0]
  exact wrap_eq n _ (by rw [toInt_ofNat_of_lt _ (by omega)]; omega)

/-- The reference's output column of a pooling index k ≥ 0: the wrapped remainder by 128 of the floor of k / 256. -/
theorem ref_col (n k : BitVec 32) (h0 : 0 ≤ k.toInt) :
    wrap n (rrem 128#32 (rfloor 256#32 k)) = BitVec.ofNat 32 (k.toNat / 256 % 128) := by
  have hk := toNat_lt_of_nonneg k h0
  rw [rfloor_256 k h0]
  have hq : 0 ≤ (BitVec.ofNat 32 (k.toNat / 256)).toInt := by
    rw [toInt_ofNat_of_lt _ (by omega)]; omega
  rw [rrem_128 _ hq, toNat_ofNat_of_lt _ (by omega)]
  exact wrap_eq n _ (by rw [toInt_ofNat_of_lt _ (by omega)]; omega)

end Cert.Unpool.Int
-- ==== Proof.RefValue.lean ====
/-
  The reference's result is the unpooled tensor of the specification: under the precondition each update's four
  index words are its batch, the row k / (128·256), the column (k / 256) mod 128 and its channel, all inside the
  output, so the four-axis scatter-add into zeros adds each update at exactly the position the specification names.
-/
import proofs.«175987_j63015760166976_2_alg».proof.Proof.RefOut
import proofs.«175987_j63015760166976_2_alg».proof.Proof.RefScatter
import proofs.«175987_j63015760166976_2_alg».proof.Proof.IntRef
import proofs.«175987_j63015760166976_2_alg».proof.Proof.Spec
import Idealize.ShloMosaic.Lib.IdealHost

noncomputable section

namespace Cert.ReferenceIdeal.RefValue

open Cert.ReferenceIdeal Idealize.ShloMosaic Idealize.ShloMosaic.ValueIdx
open Cert.ReferenceIdeal.Facts₀
open Cert.Unpool Cert.Unpool.Int

variable [Facts₀]

/-- The row component at update J: the wrapped floor of the pooling index by 128 · 256. -/
theorem idxY_apply (mask : IVec S16x64x64x256 32) (J : S16x64x64x256.Idx) :
    idxY mask J = wrap 128#32 (rfloor 32768#32 (mask J)) := rfl

/-- The column component at update J: the wrapped remainder by 128 of the floor of the pooling index by 256. -/
theorem idxX_apply (mask : IVec S16x64x64x256 32) (J : S16x64x64x256.Idx) :
    idxX mask J = wrap 128#32 (rrem 128#32 (rfloor 256#32 (mask J))) := rfl

/-- The batch component at update J: its wrapped batch coordinate. -/
theorem idxB_apply (J : S16x64x64x256.Idx) : idxB J = wrap 16#32 (BitVec.ofNat 32 (J 0).val) := rfl

/-- The channel component at update J: its wrapped channel coordinate. -/
theorem idxF_apply (J : S16x64x64x256.Idx) : idxF J = wrap 256#32 (BitVec.ofNat 32 (J 3).val) := rfl

/-- Under the precondition, update J lands where the specification sends it. -/
theorem resultIdx_dest (mask : IVec S16x64x64x256 32) (hm : InRange mask) (J : S16x64x64x256.Idx) :
    dR.resultIdx? J (idxTable mask) = some (dest mask J) := by
  obtain ⟨hk0, hk1⟩ := hm J
  have hkn := toInt_eq_toNat_of_nonneg (mask J) hk0
  have hk : (mask J).toNat < 4194304 := by omega
  have hb : (J 0).val < 16 := (J 0).isLt
  have hf : (J 3).val < 256 := (J 3).isLt
  have h0 : (idxTable mask (ix5 (J 0 : Fin 16) (J 1 : Fin 64) (J 2 : Fin 64) (J 3 : Fin 256) (0 : Fin 4))).toInt
      = (((J 0 : Fin 16)).val : Int) := by
    unfold idxTable
    rw [idxArray_apply_0, idxB_apply, wrap_eq _ _ (by rw [toInt_ofNat_of_lt _ (by omega)]; omega),
      toInt_ofNat_of_lt _ (by omega)]
  have h1 : (idxTable mask (ix5 (J 0 : Fin 16) (J 1 : Fin 64) (J 2 : Fin 64) (J 3 : Fin 256) (1 : Fin 4))).toInt
      = (((⟨(mask J).toNat / 32768 % 128, Nat.mod_lt _ (by decide)⟩ : Fin 128)).val : Int) := by
    unfold idxTable
    rw [idxArray_apply_1, idxY_apply, ref_row _ _ hk0, toInt_ofNat_of_lt _ (by omega)]
    show (((mask J).toNat / 32768 : Nat) : Int) = (((mask J).toNat / 32768 % 128 : Nat) : Int)
    rw [Nat.mod_eq_of_lt (by omega)]
  have h2 : (idxTable mask (ix5 (J 0 : Fin 16) (J 1 : Fin 64) (J 2 : Fin 64) (J 3 : Fin 256) (2 : Fin 4))).toInt
      = (((⟨(mask J).toNat / 256 % 128, Nat.mod_lt _ (by decide)⟩ : Fin 128)).val : Int) := by
    unfold idxTable
    rw [idxArray_apply_2, idxX_apply, ref_col _ _ hk0, toInt_ofNat_of_lt _ (by omega)]
  have h3 : (idxTable mask (ix5 (J 0 : Fin 16) (J 1 : Fin 64) (J 2 : Fin 64) (J 3 : Fin 256) (3 : Fin 4))).toInt
      = (((J 3 : Fin 256)).val : Int) := by
    unfold idxTable
    rw [idxArray_apply_3, idxF_apply, wrap_eq _ _ (by rw [toInt_ofNat_of_lt _ (by omega)]; omega),
      toInt_ofNat_of_lt _ (by omega)]
  exact resultIdx_ref J (idxTable mask) (J 0) _ _ (J 3) h0 h1 h2 h3

/-- The reference's result at the ideal instance is the unpooled tensor. -/
theorem refOut_eq (upd : S16x64x64x256.Idx → EReal) (mask : IVec S16x64x64x256 32) (hm : InRange mask) :
    refOut (F := Ideal) upd mask = unpool upd mask := by
  funext i
  show Ideal.hostScatterAdd dR
      (broadcastInDim S16x128x128x256 ![] bcast_S_S16x128x128x256 (constant (F := Ideal) S_ .f32 0x00000000#32))
      (idxTable mask) upd i = unpool upd mask i
  unfold Ideal.hostScatterAdd unpool
  have hz : broadcastInDim S16x128x128x256 ![] bcast_S_S16x128x128x256
      (constant (F := Ideal) S_ .f32 0x00000000#32) i = 0 := Ideal.ofBits_zero_f32
  rw [hz, zero_add]
  refine Finset.sum_congr ?_ (fun _ _ => rfl)
  ext J
  simp only [Finset.mem_filter, Finset.mem_univ, true_and]
  rw [resultIdx_dest mask hm J]
  exact Option.some_inj

end Cert.ReferenceIdeal.RefValue

end
-- ==== Proof.lean ====
/-
  Max-unpooling as a scatter-add: the kernel program against its reference, over the extended reals.

  Both programs add each update `updates (b, h, w, f)` into a [16, 128, 128, 256] tensor of zeros at the position its
  pooling index k = mask (b, h, w, f) names in batch b's plane: row k / (128·256), column (k / 256) mod 128, channel f;
  updates sent to one position add up (`Cert.Unpool.unpool`, Proof/Spec.lean).
    • The reference decodes row and column by floor division and remainder, wraps a negative coordinate by its axis'
      extent, and makes ONE scatter-add with four-component index vectors.
    • The kernel program computes, in a Pallas call over 8 blocks of 2 batches, the flat destination
      b·(128·128·256) + floor(k / 256)·256 + f of every update, then flattens updates and destinations, wraps a negative
      destination by the flat length, scatter-adds along ONE axis into 16·128·128·256 zeros and reshapes.
  The two agree exactly where every pooling index lies in its plane, 0 ≤ k < 128·128·256 — outside it the reference's
  row leaves the tensor (the update is dropped, or wrapped into the same batch) while the kernel's flat destination
  lands in a NEIGHBOURING batch — and that range is the precondition's integer conjunct (decoded in
  Proof/PreDecode.lean). Inside the range floor(k / 256) = 128·(k / 32768) + (k / 256) mod 128, so the flat
  destination is the row-major position of (b, k / 32768, (k / 256) mod 128, f): the flat scatter's sum at a position is
  the four-axis scatter's sum at it, re-indexed along the row-major matching of the updates (Proof/KernelBridge.lean for
  the kernel program, Proof/RefValue.lean for the reference). Only commutative re-indexing of one sum is used: the
  finiteness of the float inputs is never opened.
  The three frames: the kernel program's two, at the word level and at the ideal instance, are the frame certificates of
  Proof/KernelFrame.lean and Proof/KernelIdealFrame.lean; the reference's is its run with the result dropped
  (Proof/RefRun.lean). The idealization rewrote nothing, so `preserves` is `True`.
-/
import proofs.«175987_j63015760166976_2_alg».proof.Defs
import proofs.«175987_j63015760166976_2_alg».proof.Proof.Gen.Kernel
import proofs.«175987_j63015760166976_2_alg».proof.Proof.Gen.KernelIdeal
import proofs.«175987_j63015760166976_2_alg».proof.Proof.Gen.ReferenceIdeal
import proofs.«175987_j63015760166976_2_alg».proof.Proof.Gen.Pre_finite_inputs
import proofs.«175987_j63015760166976_2_alg».proof.Proof.KernelFrame
import proofs.«175987_j63015760166976_2_alg».proof.Proof.KernelRun
import proofs.«175987_j63015760166976_2_alg».proof.Proof.PreDecode
import proofs.«175987_j63015760166976_2_alg».proof.Proof.RefRun
import proofs.«175987_j63015760166976_2_alg».proof.Proof.RefValue
import Idealize.ShloMosaic.Adequacy
import Idealize.ShloMosaic.Init

noncomputable section

namespace Cert.Proof

open Idealize.ShloMosaic Idealize.SL.Sem

/-- The kernel program at the word level runs and leaves its arguments as launched. -/
theorem frame_k : Cert.frame_Kernel := fun m ρ _ => Cert.Kernel.GenP.frame m ρ

/-- The same at the ideal instance. -/
theorem frame_ki : Cert.frame_KernelIdeal := fun m ρ _ => Cert.KernelIdeal.GenP.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.RefValue.run (F := Ideal) m ρ)

/-- The idealization rewrote no operation. -/
theorem preserves : Cert.preserves_Kernel_KernelIdeal := trivial

/-- From memories agreeing on the arguments, with every pooling index inside its plane, both programs end with the
    unpooled tensor of the arguments in their result buffers. -/
theorem algebraic : Cert.algebraic_KernelIdeal_ReferenceIdeal := by
  intro m ρ m' ρ' hpre hagree
  have hr : ∀ c : Dev Cert.KernelIdeal.nD, Cert.Unpool.InRange
      (m ((c.tc : Thread Cert.KernelIdeal.nD Cert.KernelIdeal.τ).loc Cert.KernelIdeal.main_arg1)) :=
    fun c => Cert.Unpool.inRange_of_pre _ _ _ (hpre c)
  refine ⟨fun c => Cert.Unpool.unpool
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.KValue.run m ρ hr, ?_⟩
  refine (θ_run Cert.ReferenceIdeal.defs _ _).mono (fun _ h c => ⟨(h c).1.trans ?_, (h c).2⟩)
    (Cert.ReferenceIdeal.RefValue.run (F := Ideal) m' ρ')
  rw [(hagree c).1, (hagree c).2.1]
  exact Cert.ReferenceIdeal.RefValue.refOut_eq _ _ (hr c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
